-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10000 : Shape := ⟨2, ![16384, 10000]⟩
abbrev S16384 : Shape := ⟨1, ![16384]⟩
abbrev S_ : Shape := ⟨0, ![]⟩

class Facts : Prop where
  bcast_S_S16384x10000 : S_.BroadcastsInDim S16384x10000 (![] : Fin 0 → Fin S16384x10000.rank)
  reducesTo_S16384x10000_S_d0_1 : S16384x10000.ReducesTo [0, 1] S_
  h_S_ : 0 < S_.numel

variable [Facts]

def fn {F : FTy → Type} [FloatOps F] (main_arg0 : FVec F S16384x10000 .f32) (main_arg1 : IVec S16384 32) : IVec S_ 1 :=
  let main_v0 : FVec F S16384x10000 .f32 := Host.absf main_arg0
  let main_cst : FVec F S_ .f32 := constant S_ .f32 0x7F800000#32
  let main_v1 : FVec F S16384x10000 .f32 := broadcastInDim S16384x10000 ![] bcast_S_S16384x10000 main_cst
  let main_v2 : IVec S16384x10000 1 := cmpf .olt main_v0 main_v1
  let main_c : IVec S_ 1 := constantI S_ 1 1#1
  let main_v3 : IVec S_ 1 := (fun x v => Host.reduce IntOp.andi x v reducesTo_S16384x10000_S_d0_1 h_S_) main_v2 main_c
  main_v3
-- ==== Kernel.lean ====
abbrev S16384x10000 : Shape := ⟨2, ![16384, 10000]⟩
abbrev S16384 : Shape := ⟨1, ![16384]⟩
abbrev S512x2048 : Shape := ⟨2, ![512, 2048]⟩
abbrev S512 : Shape := ⟨1, ![512]⟩
abbrev S512x1 : Shape := ⟨2, ![512, 1]⟩
abbrev S_ : Shape := ⟨0, ![]⟩
abbrev S16384x1 : Shape := ⟨2, ![16384, 1]⟩
abbrev S16384x2 : Shape := ⟨2, ![16384, 2]⟩

abbrev nBuf : Space → Nat
  | .hbm => 40
  | .vmem => 6
  | .smem => 0
  | _ => 0

abbrev bufTy : (tb : Table) → Fin (tcTables nBuf tb) → BufTy
  | .hbm, ⟨0, _⟩ => ⟨S16384x10000, .f32⟩
  | .hbm, ⟨1, _⟩ => ⟨S16384, .i32⟩
  | .hbm, ⟨2, _⟩ => ⟨S16384, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S16384x1, .i32⟩
  | .hbm, ⟨20, _⟩ => ⟨S16384x2, .i32⟩
  | .hbm, ⟨21, _⟩ => ⟨S16384, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512, .f32⟩
  | .local _ .vmem, ⟨3, _⟩ => ⟨S512, .f32⟩
  | .local _ .vmem, ⟨4, _⟩ => ⟨S512x1, .f32⟩
  | .local _ .vmem, ⟨5, _⟩ => ⟨S512x1, .f32⟩
  | _, _ => ⟨S16384x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c4_i32 : BitVec 32 := 4#32
  let v34 : BitVec 1 := Scalar.cmpi .eq arg1 c4_i32
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  shapeCasts_S512x1_S512 : S512x1.ShapeCasts S512
  inb_S512_S512_0 : ∀ a, (![0] : Fin 1 → Nat) a + S512.size a ≤ S512.size a
  h_S512 : 0 < S512.numel
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384_S_d0 : S16384.ReducesTo [0] S_
  h_S_ : 0 < S_.numel
  gather_S16384x10000_S16384x2_S16384_n_01_n_n_01_1_11_wf : GatherDims.WF S16384x10000 S16384x2 S16384 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x2048.size a < S16384x10000.size a
  hwx0_0 : ∀ i : grid0.Coords, EltTy.bits .f32 = 32 ∨ (Rect.unit (s := S16384x10000) (fun a => cc0_transform_0 i a * S512x2048.size a) (fun a => (Pipeline.Clip.of (cc0_transform_0 i a) (S512x2048.size a) (S16384x10000.size a)).extent (S512x2048.size a)) fun a => Pipeline.Clip.inb (Pipeline.Clip.ok_of (hstart0_0 i a))).WholeWords (EltTy.packing .f32)
  hwxs0_0 : ∀ i : grid0.Coords, EltTy.bits .f32 = 32 ∨ (Rect.unit (s := S512x2048) (fun _ => 0) (fun a => (Pipeline.Clip.of (cc0_transform_0 i a) (S512x2048.size a) (S16384x10000.size a)).extent (S512x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S16384.size a
  hwx0_1 : ∀ i : grid0.Coords, EltTy.bits .f32 = 32 ∨ (Rect.block (s := S16384) S512.size (cc0_transform_1 i) (hinb0_1 i)).WholeWords (EltTy.packing .f32)

variable [Facts₀]

def gather_S16384x10000_S16384x2_S16384_n_01_n_n_01_1_11 : GatherDims S16384x10000 S16384x2 S16384 where
  offsetDims := []
  collapsedSliceDims := [0, 1]
  operandBatchingDims := []
  startIndicesBatchingDims := []
  startIndexMap := [0, 1]
  indexVectorDim := 1
  sliceSizes := ![1, 1]
  wf := gather_S16384x10000_S16384x2_S16384_n_01_n_n_01_1_11_wf

abbrev win0_0 : Pipeline.Window sig grid0 :=
  Pipeline.Window.ofSpecClip (Memref.whole main_arg0) S512x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16384x10000 : Shape := ⟨2, ![16384, 10000]⟩
abbrev S16384 : Shape := ⟨1, ![16384]⟩
abbrev S_ : Shape := ⟨0, ![]⟩
abbrev S16384x1 : Shape := ⟨2, ![16384, 1]⟩
abbrev S16384x2 : Shape := ⟨2, ![16384, 2]⟩

abbrev nBuf : Space → Nat
  | .hbm => 72
  | .vmem => 0
  | .smem => 0
  | _ => 0

abbrev bufTy : (tb : Table) → Fin (tcTables nBuf tb) → BufTy
  | .hbm, ⟨0, _⟩ => ⟨S16384x10000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x10000, .f32⟩
  | .hbm, ⟨9, _⟩ => ⟨S16384x10000, .f32⟩
  | .hbm, ⟨10, _⟩ => ⟨S16384x10000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S16384x10000, .f32⟩
  | .hbm, ⟨16, _⟩ => ⟨S16384x10000, .f32⟩
  | .hbm, ⟨17, _⟩ => ⟨S16384x10000, .f32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1, .i32⟩
  | .hbm, ⟨35, _⟩ => ⟨S16384x2, .i32⟩
  | .hbm, ⟨36, _⟩ => ⟨S16384, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384x1, .i32⟩
  | .hbm, ⟨53, _⟩ => ⟨S16384x2, .i32⟩
  | .hbm, ⟨54, _⟩ => ⟨S16384, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S16384x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_cst_10 : Ref sig .tc := ⟨.hbm, 65, rfl⟩
abbrev main_v37 : Ref sig .tc := ⟨.hbm, 66, rfl⟩
abbrev main_cst_11 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]

class Facts₀ : Prop where
  reducesTo_S16384x10000_S16384_d1 : S16384x10000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10000_0_1 : S16384x1.BroadcastsInDim S16384x10000 (![0, 1] : Fin 2 → Fin S16384x10000.rank)
  concatenates_S16384x1_S16384x1_S16384x2_d1 : Shape.Concatenates [S16384x1, S16384x1] S16384x2 1
  reducesTo_S16384_S_d0 : S16384.ReducesTo [0] S_
  reducesTo_S16384x10000_S_d0_1 : S16384x10000.ReducesTo [0, 1] S_
  gather_S16384x10000_S16384x2_S16384_n_01_n_n_01_1_11_wf : GatherDims.WF S16384x10000 S16384x2 S16384 [] [0, 1] [] [0, 1] [] 1 ![1, 1]

variable [Facts₀]

def gather_S16384x10000_S16384x2_S16384_n_01_n_n_01_1_11 : GatherDims S16384x10000 S16384x2 S16384 where
  offsetDims := []
  collapsedSliceDims := [0, 1]
  operandBatchingDims := []
  startIndicesBatchingDims := []
  startIndexMap := [0, 1]
  indexVectorDim := 1
  sliceSizes := ![1, 1]
  wf := gather_S16384x10000_S16384x2_S16384_n_01_n_n_01_1_11_wf

class Facts : Prop extends Facts₀ where

variable [Facts]
-- ==== Proof.KBodyDefs.lean ====
/-
  The row-wise log-sum-exp kernel, stated once for the proof of its frame: the grid is 32 row blocks by 5 column tiles,
  point `t` is row block `t / 5`, column tile `t % 5`. The body's two branches are decided by the column tile alone: the
  first tile of a row block (`t % 5 = 0`) resets the running maximum and the running sum kept in the two scratch columns,
  the last tile (`t % 5 = 4`) stores the row block's 512 results, and only there is the result window's buffer touched.
  Here: the two conditions in closed form over the grid, where the result window is idle, the buffers the body is called
  with at a point, and the region invariant with the two scratch columns named.
-/
import proofs.«109123_j52613349376066_2_alg».proof.Proof.Gen.Kernel.Frame
import proofs.«109123_j52613349376066_2_alg».proof.Proof.Gen.Kernel.Skeleton

-- membership in a rectangle of these extents is decided structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, from the grid coordinates -/

/-- The body's first `scf.if`: the point is the first column tile of its row block. -/
abbrev condFirst (i : grid0.Coords) : Prop :=
  (Scalar.cmpi .ne (Scalar.extui (Scalar.cmpi .eq (BitVec.ofNat 32 (i 1).val) 0#32)) 0#32) = 1#1
/-- It holds at the points ≡ 0 (mod 5). -/
theorem hcondFirst : ∀ t : Fin cfg0.N, condFirst (grid0.coords t) ↔ t.val % 5 = 0 :=
  (by decide +kernel : ∀ t : Fin grid0.N, condFirst (grid0.coords t) ↔ t.val % 5 = 0)

/-- The body's second `scf.if`: the point is the last column tile of its row block. -/
abbrev condLast (i : grid0.Coords) : Prop := k0_cond2 i = 1#1
/-- It holds at the points ≡ 4 (mod 5). -/
theorem hcondLast : ∀ t : Fin cfg0.N, condLast (grid0.coords t) ↔ t.val % 5 = 4 :=
  (by decide +kernel : ∀ t : Fin grid0.N, condLast (grid0.coords t) ↔ t.val % 5 = 4)

/-! ## Where the windows are idle -/

/-- The input window is never idle. -/
theorem live0 : ∀ t : Fin cfg0.N, cfg0.idle 0 (grid0.coords t) = false := by decide +kernel
/-- Away from the last column tile the result window is idle: the body stores nothing into it, -/
theorem idle1 : ∀ t : Fin cfg0.N, ¬condLast (grid0.coords t) → cfg0.idle 1 (grid0.coords t) = true := by decide +kernel
/-- and its block is not written back there. -/
theorem noFlush1 : ∀ t : Fin cfg0.N, ¬condLast (grid0.coords t) → (cfg0.win 1).flush t = false := by decide +kernel
/-- At the last column tile the result window is live, -/
theorem live1 : ∀ t : Fin cfg0.N, condLast (grid0.coords t) → cfg0.idle 1 (grid0.coords t) = false := by decide +kernel
/-- and its block is written back. -/
theorem flush1 : ∀ t : Fin cfg0.N, condLast (grid0.coords t) → (cfg0.win 1).flush t = true := by decide +kernel

/-! ## The buffers the body is called with -/

/-- The input window's current staging buffer at point `t`, and that it is a whole buffer. -/
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
/-- The result window's. -/
abbrev ms1 (t : Fin cfg0.N) : Memref sig .tc .vmem S512 .f32 := win0_1.stage (cfg0.slots t 1)
abbrev hs1 (t : Fin cfg0.N) : (ms1 t).IsWhole := hstage0_1 ((cfg0.slots t 1).cast nbuf0_1)
/-- The scratch column of running maxima and the scratch column of running sums. -/
abbrev scM : Memref sig .tc .vmem S512x1 .f32 := Memref.whole cc0_scratch0
abbrev scL : Memref sig .tc .vmem S512x1 .f32 := Memref.whole cc0_scratch1

/-- The region's invariant with the two scratch columns as buffers owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA; rw [scopedRest0_eq]; simp only [scM, scL, owns_whole]; try rfl

end Cert.Kernel.Hand

end
-- ==== Proof.KBodyRunA.lean ====
/-
  The body at the FIRST column tile of a row block, run once over any whole buffers: it resets the two scratch columns (the
  running maximum to the finite floor value, the running sum to zero), folds the tile in, and leaves the result window's
  buffer untouched. What each scratch column ends with is found by the run as the list of its stores, last first.
-/
import proofs.«109123_j52613349376066_2_alg».proof.Proof.KBodyDefs

-- membership in a rectangle of these extents is decided structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole buffers — the input tile at `x0`, the result buffer at any `x1`, the scratch columns at anything — the body
    runs to its end with the input and the result buffer as they were and each scratch column holding its stores. -/
noncomputable def runFirst (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i)
    (x0 : Vec F S512x2048 .f32) :
    Σ' (LM : List (View.Piece (Elt F) S512x1 .f32)), { LL : List (View.Piece (Elt F) S512x1 .f32) //
      ∀ (x1 : Vec F S512 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LM) ∗ (∃ f, arg5.view.loc (c : Thread nD τ) ↦[arg5.view.set]{fullShare} arg5.view.writes (Elt F) f LL)) -∗ K ⟨⟩))
          ⊢ wp frame (wpE (defs₀ (F := F)) Variants.none c none) E (cc0__lse_kernel i arg2 harg2 arg3 harg3 arg4 harg4 arg5 harg5) K } := by
  refine ⟨?_, ?_, fun x1 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%d4, %f4, -, HM⟩, ⟨%d5, %f5, -, HL⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HL

end Cert.Kernel.Hand

end
-- ==== Proof.KBodyRunB.lean ====
/-
  The body at a MIDDLE column tile (neither first nor last), run once over any whole buffers: it folds the tile into the
  running maximum and the running sum the scratch columns hold, and leaves the result window's buffer untouched.
-/
import proofs.«109123_j52613349376066_2_alg».proof.Proof.KBodyRunA

-- membership in a rectangle of these extents is decided structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole buffers — the input tile at `x0`, the result buffer at any `x1`, the scratch columns at `xm` and `xl` — the
    body runs to its end with the input and the result buffer as they were and each scratch column holding its stores. -/
noncomputable def runMid (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i)
    (x0 : Vec F S512x2048 .f32) (xm : Vec F S512x1 .f32) (xl : Vec F S512x1 .f32) :
    Σ' (LM : List (View.Piece (Elt F) S512x1 .f32)), { LL : List (View.Piece (Elt F) S512x1 .f32) //
      ∀ (x1 : Vec F S512 .f32) (E : Set ℕ) (K : PUnit → sProp 𝕄),
        iprop(owns (c : Thread nD τ) arg2 fullShare x0 ∗ owns (c : Thread nD τ) arg3 fullShare x1 ∗ owns (c : Thread nD τ) arg4 fullShare xm ∗ owns (c : Thread nD τ) arg5 fullShare xl
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LM) ∗ (∃ f, arg5.view.loc (c : Thread nD τ) ↦[arg5.view.set]{fullShare} arg5.view.writes (Elt F) f LL)) -∗ K ⟨⟩))
          ⊢ wp frame (wpE (defs₀ (F := F)) Variants.none c none) E (cc0__lse_kernel i arg2 harg2 arg3 harg3 arg4 harg4 arg5 harg5) K } := by
  refine ⟨?_, ?_, fun x1 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f4, %hf4, HM⟩, ⟨%f5, %hf5, HL⟩, Hk⟩
    obtain rfl := harg2.eq_unread hf0; obtain rfl := harg3.eq_unread hf1
    obtain rfl := harg4.eq_unread hf4; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HL

end Cert.Kernel.Hand

end
-- ==== Proof.KBodyRunC.lean ====
/-
  The body at the LAST column tile of a row block, run once over any whole buffers: it folds the tile into the running
  maximum and the running sum, then stores maximum + log(sum), one value per row, over the whole result buffer.
-/
import proofs.«109123_j52613349376066_2_alg».proof.Proof.KBodyRunB

-- membership in a rectangle of these extents is decided structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole buffers — the input tile at `x0`, the result buffer at anything, the scratch columns at `xm` and `xl` — the
    body runs to its end with the input as it was and the result buffer and each scratch column holding its stores. -/
noncomputable def runLast (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i)
    (x0 : Vec F S512x2048 .f32) (xm : Vec F S512x1 .f32) (xl : Vec F S512x1 .f32) :
    Σ' (LO : List (View.Piece (Elt F) S512 .f32)) (LM : List (View.Piece (Elt F) S512x1 .f32)), { LL : List (View.Piece (Elt F) S512x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xm ∗ owns (c : Thread nD τ) arg5 fullShare xl
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LM) ∗ (∃ f, arg5.view.loc (c : Thread nD τ) ↦[arg5.view.set]{fullShare} arg5.view.writes (Elt F) f LL)) -∗ K ⟨⟩))
          ⊢ wp frame (wpE (defs₀ (F := F)) Variants.none c none) E (cc0__lse_kernel i arg2 harg2 arg3 harg3 arg4 harg4 arg5 harg5) K } := by
  refine ⟨?_, ?_, ?_, fun E K => ?run⟩
  case run =>
    simp only [cc0__lse_kernel_eq_skeleton]; unfold cc0__lse_kernel_skel
    simp only [k0_part1_eq_skeleton]
    unfold owns
    iintro ⟨⟨%f0, %hf0, H0⟩, ⟨%d1, %f1, -, H1⟩, ⟨%f4, %hf4, HM⟩, ⟨%f5, %hf5, HL⟩, Hk⟩
    obtain rfl := harg2.eq_unread hf0
    obtain rfl := harg4.eq_unread hf4; obtain rfl := harg5.eq_unread hf5
    sl_exec (disch := first | exact hc0 | exact hc1)
    sl_step
    iapply Hk
    isplitl [H0]
    · iexists _; isplitr; · ipureintro; exact harg2.read_unread _
      iexact H0
    isplitl [H1]; · iexists _; iexact H1
    isplitl [HM]; · iexists _; iexact HM
    iexists _; iexact HL

end Cert.Kernel.Hand

end
-- ==== Proof.KBodyPieces.lean ====
/-
  What the body leaves in each buffer, as a function of what the buffers held.

  Every store of the body fills a whole buffer, so a buffer ends at its LAST store's value, and every load reads a whole
  buffer: the tile, or a scratch column at what the store before it left. Read back in this way the three runs say: the
  running-maximum column ends at `max(previous maximum, row maxima of the masked tile)`, the running-sum column at
  `exp(previous maximum − new maximum) · previous sum + row sums of exp(masked tile − new maximum)` — at the first tile
  with the floor value and zero in the place of the previous ones —, and at the last tile the result buffer at
  `new maximum + log(new sum)`, row by row.
-/
import proofs.«109123_j52613349376066_2_alg».proof.Proof.KBodyRunC
import Idealize.ShloMosaic.Lib.Pipeline.Value

-- membership in a rectangle of these extents is decided structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-! ## Each run's stores cover the buffer they go to -/

theorem coverFirstM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i) (x0 : Vec F S512x2048 .f32) (y : S512x1.Idx) :
    ∃ pc ∈ (runFirst (F := F) c i arg2 harg2 arg3 harg3 arg4 harg4 arg5 harg5 hc0 hc1 x0).1, y ∈ pc.1.set :=
  View.cover_of_tiledL _ S512x1.size (by sl_kernel_rfl) y
theorem coverFirstL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i) (x0 : Vec F S512x2048 .f32) (y : S512x1.Idx) :
    ∃ pc ∈ (runFirst (F := F) c i arg2 harg2 arg3 harg3 arg4 harg4 arg5 harg5 hc0 hc1 x0).2.1, y ∈ pc.1.set :=
  View.cover_of_tiledL _ S512x1.size (by sl_kernel_rfl) y
theorem coverMidM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i) (x0 : Vec F S512x2048 .f32) (xm xl : Vec F S512x1 .f32) (y : S512x1.Idx) :
    ∃ pc ∈ (runMid (F := F) c i arg2 harg2 arg3 harg3 arg4 harg4 arg5 harg5 hc0 hc1 x0 xm xl).1, y ∈ pc.1.set :=
  View.cover_of_tiledL _ S512x1.size (by sl_kernel_rfl) y
theorem coverMidL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i) (x0 : Vec F S512x2048 .f32) (xm xl : Vec F S512x1 .f32) (y : S512x1.Idx) :
    ∃ pc ∈ (runMid (F := F) c i arg2 harg2 arg3 harg3 arg4 harg4 arg5 harg5 hc0 hc1 x0 xm xl).2.1, y ∈ pc.1.set :=
  View.cover_of_tiledL _ S512x1.size (by sl_kernel_rfl) y
theorem coverLastO (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (y : S512.Idx) :
    ∃ pc ∈ (runLast (F := F) c i arg2 harg2 arg3 harg3 arg4 harg4 arg5 harg5 hc0 hc1 x0 xm xl).1, y ∈ pc.1.set :=
  View.cover_of_tiledL _ S512.size (by sl_kernel_rfl) y
theorem coverLastM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (y : S512x1.Idx) :
    ∃ pc ∈ (runLast (F := F) c i arg2 harg2 arg3 harg3 arg4 harg4 arg5 harg5 hc0 hc1 x0 xm xl).2.1, y ∈ pc.1.set :=
  View.cover_of_tiledL _ S512x1.size (by sl_kernel_rfl) y
theorem coverLastL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (y : S512x1.Idx) :
    ∃ pc ∈ (runLast (F := F) c i arg2 harg2 arg3 harg3 arg4 harg4 arg5 harg5 hc0 hc1 x0 xm xl).2.2.1, y ∈ pc.1.set :=
  View.cover_of_tiledL _ S512x1.size (by sl_kernel_rfl) y

/-! ## What they leave -/

/-- First tile: the maximum column ends at the fold of the tile into the floor value, -/
theorem firstM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i) (x0 : Vec F S512x2048 .f32) (f : arg4.view.ty.Contents (Elt F)) :
    arg4.view.read (Elt F) (arg4.view.writes (Elt F) f (runFirst (F := F) c i arg2 harg2 arg3 harg3 arg4 harg4 arg5 harg5 hc0 hc1 x0).1) = k0_pay8 i x0 (k0_pay2 (F := F)) := by
  rw [View.read_writes_eq_canon _ _ _ (fun y => View.cover_of_tiledL _ S512x1.size (by sl_kernel_rfl) y)]
  unfold runFirst
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]
/-- and the sum column at the fold of the tile into zero. -/
theorem firstL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i) (x0 : Vec F S512x2048 .f32) (f : arg5.view.ty.Contents (Elt F)) :
    arg5.view.read (Elt F) (arg5.view.writes (Elt F) f (runFirst (F := F) c i arg2 harg2 arg3 harg3 arg4 harg4 arg5 harg5 hc0 hc1 x0).2.1) = k0_pay7 i x0 (k0_pay2 (F := F)) (k0_pay3 (F := F)) := by
  rw [View.read_writes_eq_canon _ _ _ (fun y => View.cover_of_tiledL _ S512x1.size (by sl_kernel_rfl) y)]
  unfold runFirst
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]

/-- Middle tile: the maximum column ends at the fold of the tile into what it held, -/
theorem midM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i) (x0 : Vec F S512x2048 .f32) (xm xl : Vec F S512x1 .f32) (f : arg4.view.ty.Contents (Elt F)) :
    arg4.view.read (Elt F) (arg4.view.writes (Elt F) f (runMid (F := F) c i arg2 harg2 arg3 harg3 arg4 harg4 arg5 harg5 hc0 hc1 x0 xm xl).1) = k0_pay8 i x0 xm := by
  rw [View.read_writes_eq_canon _ _ _ (fun y => View.cover_of_tiledL _ S512x1.size (by sl_kernel_rfl) y)]
  unfold runMid
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]
/-- and the sum column likewise. -/
theorem midL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i) (x0 : Vec F S512x2048 .f32) (xm xl : Vec F S512x1 .f32) (f : arg5.view.ty.Contents (Elt F)) :
    arg5.view.read (Elt F) (arg5.view.writes (Elt F) f (runMid (F := F) c i arg2 harg2 arg3 harg3 arg4 harg4 arg5 harg5 hc0 hc1 x0 xm xl).2.1) = k0_pay7 i x0 xm xl := by
  rw [View.read_writes_eq_canon _ _ _ (fun y => View.cover_of_tiledL _ S512x1.size (by sl_kernel_rfl) y)]
  unfold runMid
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]

/-- Last tile: the two columns as at a middle tile, -/
theorem lastM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (f : arg4.view.ty.Contents (Elt F)) :
    arg4.view.read (Elt F) (arg4.view.writes (Elt F) f (runLast (F := F) c i arg2 harg2 arg3 harg3 arg4 harg4 arg5 harg5 hc0 hc1 x0 xm xl).2.1) = k0_pay8 i x0 xm := by
  rw [View.read_writes_eq_canon _ _ _ (fun y => View.cover_of_tiledL _ S512x1.size (by sl_kernel_rfl) y)]
  unfold runLast
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]
theorem lastL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (f : arg5.view.ty.Contents (Elt F)) :
    arg5.view.read (Elt F) (arg5.view.writes (Elt F) f (runLast (F := F) c i arg2 harg2 arg3 harg3 arg4 harg4 arg5 harg5 hc0 hc1 x0 xm xl).2.2.1) = k0_pay7 i x0 xm xl := by
  rw [View.read_writes_eq_canon _ _ _ (fun y => View.cover_of_tiledL _ S512x1.size (by sl_kernel_rfl) y)]
  unfold runLast
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]
/-- and the result buffer at the new maximum plus the logarithm of the new sum. -/
theorem lastO (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (f : arg3.view.ty.Contents (Elt F)) :
    arg3.view.read (Elt F) (arg3.view.writes (Elt F) f (runLast (F := F) c i arg2 harg2 arg3 harg3 arg4 harg4 arg5 harg5 hc0 hc1 x0 xm xl).1) = k0_pay1 (k0_pay8 i x0 xm) (k0_pay7 i x0 xm xl) := by
  rw [View.read_writes_eq_canon _ _ _ (fun y => View.cover_of_tiledL _ S512.size (by sl_kernel_rfl) y)]
  unfold runLast
  dsimp only
  sl_unfold_words
  rw [View.canon_cons_unit_zero hz1]
  simp only [View.readAt_eq_ld, harg2.read_unread, harg4.read_unread, harg5.read_unread, View.ld_unit_zero (S := S512x2048) hz2,
    View.ld_unit_zero (S := S512x1) hz2, View.readCov_unit_zero (S := S512x1) _ hz2]

end Cert.Kernel.Hand

end
-- ==== Proof.KBodyMask.lean ====
/-
  The column mask and the tail of a clipped tile.

  Tile `j` of a row block covers columns `2048 j … 2048 j + 2047`; the array has 10000 columns, so the last tile (`j = 4`)
  reaches past the array's end from its column 1808 on, and there the staging buffer holds words nothing names. The body
  never uses them: it first replaces every entry whose column `2048 j + k` is not below 10000 by the floor value, and the
  positions past the array's end are exactly such entries. So the masked tile — and with it everything the body computes —
  is the same whatever fills the buffer's tail.
-/
import proofs.«109123_j52613349376066_2_alg».proof.Proof.KBodyDefs
import Idealize.ShloMosaic.Lib.Pipeline.Value
import Idealize.ShloMosaic.Lib.ValueIdx

-- membership in a rectangle of these extents is decided structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The signed comparison of `2048 a + b` with 10000 on 32-bit words is the comparison of the numbers, for a column tile
    `a < 5` and a column `b < 2048` inside it (nothing wraps: the sum is below 10240). -/
theorem slt_cols : ∀ (a : Fin 5) (b : Fin 2048),
    (IntOp.cmpi .slt (IntOp.addi (Scalar.muli (BitVec.ofNat 32 a.val) 2048#32) (BitVec.ofNat 32 b.val)) 10000#32 : BitVec 1)
      = BitVec.ofBool (decide (a.val * 2048 + b.val < 10000)) := by decide +kernel

/-- A point's column tile is its number modulo 5, -/
theorem coords_col : ∀ t : Fin cfg0.N, ((grid0.coords t) 1).val = t.val % 5 :=
  (by decide +kernel : ∀ t : Fin grid0.N, ((grid0.coords t) 1).val = t.val % 5)
/-- the tile has all its 512 rows inside the array, -/
theorem xsize_rows : ∀ t : Fin cfg0.N, win0_0.xsize (grid0.coords t) 0 = 512 :=
  (by decide +kernel : ∀ t : Fin grid0.N, win0_0.xsize (grid0.coords t) 0 = 512)
/-- and of its 2048 columns all but for the last tile, which has 1808. -/
theorem xsize_cols : ∀ t : Fin cfg0.N, win0_0.xsize (grid0.coords t) 1 = if t.val % 5 = 4 then 1808 else 2048 :=
  (by decide +kernel : ∀ t : Fin grid0.N, win0_0.xsize (grid0.coords t) 1 = if t.val % 5 = 4 then 1808 else 2048)

/-- The body's column mask at a position of the tile: whether the position's column is inside the array. -/
theorem mask_apply (t : Fin cfg0.N) (r : Fin 512) (k : Fin 2048) :
    k0_pay4 (grid0.coords t) (ix2 r k) = BitVec.ofBool (decide (t.val % 5 * 2048 + k.val < 10000)) := by
  have h5 : t.val % 5 < 5 := Nat.mod_lt _ (by decide)
  have hc := coords_col t
  unfold k0_pay4
  simp only [cmpi, addi, broadcast]
  rw [iota_single_apply, hc]
  exact slt_cols ⟨t.val % 5, h5⟩ k

/-- A position of the tile the fetch does not fill lies past the array's last column: the mask is off there. -/
theorem mask_off_of_not_moved (t : Fin cfg0.N) (j : S512x2048.Idx) (h : ¬win0_0.moved (grid0.coords t) j = true) :
    k0_pay4 (grid0.coords t) j = 0#1 := by
  obtain ⟨r, k, rfl⟩ : ∃ (r : Fin 512) (k : Fin 2048), j = ix2 r k := ⟨j 0, j 1, eq_ix2 j⟩
  rw [mask_apply]
  rw [win0_0.moved_iff] at h
  have hk : ¬ (k.val < win0_0.xsize (grid0.coords t) 1) := fun hk => h fun a => by
    match a with
    | ⟨0, _⟩ => exact lt_of_lt_of_eq r.isLt (xsize_rows t).symm
    | ⟨1, _⟩ => exact hk
  rw [xsize_cols] at hk
  have hk2 := k.isLt
  split at hk
  · next h4 => rw [h4]; have : ¬ (4 * 2048 + k.val < 10000) := by omega
               simp [this]
  · exact absurd hk2 hk

/-- The masked tile is the same whatever the buffer holds past the array's end. -/
theorem masked_fill (t : Fin cfg0.N) (d d' : S512x2048.Idx → Elt F .f32) (g : (win0_0.xblock (grid0.coords t)).Idx → Elt F .f32) :
    k0_pay5 (F := F) (grid0.coords t) (win0_0.fill (grid0.coords t) d g) = k0_pay5 (grid0.coords t) (win0_0.fill (grid0.coords t) d' g) := by
  funext j
  unfold k0_pay5
  simp only [select_apply]
  by_cases hm : win0_0.moved (grid0.coords t) j = true
  · unfold Pipeline.Window.fill; rw [dif_pos hm, dif_pos hm]
  · rw [mask_off_of_not_moved t j hm]; rfl

end Cert.Kernel.Hand

end
-- ==== Proof.KBodyDat.lean ====
/-
  The proof data of the region and its body obligation.

  Point `t` fetches tile `t % 5` of row block `t / 5`; past the array's last column (the last tile's columns 1808 … 2047)
  the staging buffer holds whatever the fetch left there. The running state after point `t` is the pair (maximum column,
  sum column): at the first tile of a row block the fold of the tile into (floor value, zero), afterwards the fold of the
  tile into the state the point before left. It is stated over the tile with a FIXED value past the array's end; the
  body's masking makes that choice immaterial, so whatever the buffer's tail really holds the body leaves this state.
  The invariant before point `n + 1` is the two scratch columns at the state after point `n`; the result window's buffer
  is touched at the last tile only, where it ends at maximum + log(sum), row by row.
-/
import proofs.«109123_j52613349376066_2_alg».proof.Proof.KBodyPieces
import proofs.«109123_j52613349376066_2_alg».proof.Proof.KBodyMask

-- membership in a rectangle of these extents is decided structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tile and the running state -/

/-- The tile of point `t`: its part inside the array as the region finds it, a fixed value past the array's end. -/
def tile (c : Dev nD) (t : Fin cfg0.N) : Vec F S512x2048 .f32 :=
  win0_0.fill (grid0.coords t) (fun _ => Scalar.ofBits .f32 0#32) (iblk m c 0 t)

/-- One fold of a tile into a state (maximum column, sum column). -/
def stepSt (i : grid0.Coords) (x : Vec F S512x2048 .f32) (p : Vec F S512x1 .f32 × Vec F S512x1 .f32) :
    Vec F S512x1 .f32 × Vec F S512x1 .f32 :=
  (k0_pay8 i x p.1, k0_pay7 i x p.1 p.2)

/-- The state a row block starts from: the floor value and zero. -/
def initSt : Vec F S512x1 .f32 × Vec F S512x1 .f32 := (k0_pay2 (F := F), k0_pay3 (F := F))

/-- The fold sees the tile only through its masked form: what fills the buffer past the array's end is immaterial. -/
theorem stepSt_fill (t : Fin cfg0.N) (d d' : S512x2048.Idx → Elt F .f32) (g : (win0_0.xblock (grid0.coords t)).Idx → Elt F .f32)
    (p : Vec F S512x1 .f32 × Vec F S512x1 .f32) :
    stepSt (grid0.coords t) (win0_0.fill (grid0.coords t) d g) p = stepSt (grid0.coords t) (win0_0.fill (grid0.coords t) d' g) p := by
  unfold stepSt k0_pay8 k0_pay7 k0_pay6
  simp only [masked_fill t d d' g]

/-- The state after point `n`. -/
def stAt (c : Dev nD) : (n : ℕ) → n < cfg0.N → Vec F S512x1 .f32 × Vec F S512x1 .f32
  | 0, hn => stepSt (grid0.coords ⟨0, hn⟩) (tile m c ⟨0, hn⟩) initSt
  | n + 1, hn => stepSt (grid0.coords ⟨n + 1, hn⟩) (tile m c ⟨n + 1, hn⟩)
      (if (n + 1) % 5 = 0 then initSt else stAt c n (Nat.lt_of_succ_lt hn))

/-- At the first tile of a row block the state restarts. -/
theorem stAt_first (c : Dev nD) (t : Fin cfg0.N) (h : t.val % 5 = 0) :
    stAt m c t.val t.isLt = stepSt (grid0.coords t) (tile m c t) initSt := by
  obtain ⟨n, hn⟩ := t
  cases n with
  | zero => rfl
  | succ n => exact congrArg _ (if_pos h)

/-- At any other tile it continues from the point before. -/
theorem stAt_next (c : Dev nD) (t : Fin cfg0.N) (h : ¬t.val % 5 = 0) :
    stAt m c t.val t.isLt = stepSt (grid0.coords t) (tile m c t) (stAt m c (t.val - 1) (Nat.lt_of_le_of_lt (Nat.sub_le _ _) t.isLt)) := by
  obtain ⟨n, hn⟩ := t
  cases n with
  | zero => exact absurd (Nat.zero_mod _) h
  | succ n => exact congrArg _ (if_neg h)

/-- What the last tile of a row block stores: maximum + log(sum), one value per row. -/
def outAt (c : Dev nD) (t : Fin cfg0.N) : Vec F S512 .f32 :=
  k0_pay1 (stAt m c t.val t.isLt).1 (stAt m c t.val t.isLt).2

/-! ## The invariant -/

/-- Before position `n`: at the region's entry the scratch columns hold anything; afterwards the state the point before left. -/
def PhiS (c : Dev nD) : (n : ℕ) → n ≤ cfg0.N → sProp 𝕄
  | 0, _ => Pipeline.ΦA spec0 c
  | n + 1, hn => iprop(iprop(owns (c : Thread nD τ) scM fullShare (stAt m c n hn).1 ∗ owns (c : Thread nD τ) scL fullShare (stAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (stAt m c n hn).1 ∗ owns (c : Thread nD τ) scL fullShare (stAt m c n hn).2) ∗ (∃ r, prngReg c r)) := rfl

theorem PhiS_pos (c : Dev nD) (n : ℕ) (h : n ≤ cfg0.N) (hz : n ≠ 0) :
    PhiS m c n h = iprop(iprop(owns (c : Thread nD τ) scM fullShare (stAt m c (n - 1) (by omega)).1 ∗ owns (c : Thread nD τ) scL fullShare (stAt m c (n - 1) (by omega)).2) ∗ (∃ r, prngReg c r)) := by
  cases n with
  | zero => exact absurd rfl hz
  | succ n => rfl

/-! ## The proof data -/

/-- The arrays as the region finds them; after the body at point `t` the input's buffer at its tile and the result's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile m c t
    | ⟨1, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = tile m c t := by dsimp only [dats]
theorem after1 (c : Dev nD) (t : Fin cfg0.N) : (dats m 0 c).after 1 t = outAt m c t := by dsimp only [dats]

/-- The input's buffer as the body finds it: just fetched, the tile inside the array and `d` past its end. -/
theorem before0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq m c 0]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

/-- The input window's post: its buffer at the tile inside the array, anything past its end. -/
theorem leaves0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live0 t]
  show iprop(∃ d, owns (c : Thread nD τ) (ms0 t) fullShare (win0_0.fill (grid0.coords t) d (win0_0.cut (grid0.coords t) ((dats m 0 c).after 0 t)))) = _
  rw [after0]; unfold tile; rw [win0_0.cut_fill]

/-- The result window's post away from the last tile: its buffer as the body found it, -/
theorem leaves1_idle (c : Dev nD) (t : Fin cfg0.N) (h : ¬condLast (grid0.coords t)) :
    (dats m 0 c).leaves 1 t = iprop(∃ d, owns (c : Thread nD τ) (ms1 t) fullShare ((dats m 0 c).before 1 t d)) :=
  Dat.leaves_idle (dats m 0 c) 1 t (idle1 t h) (noFlush1 t h)

/-- and at the last tile: at the stored results. -/
theorem leaves1_last (c : Dev nD) (t : Fin cfg0.N) (h : condLast (grid0.coords t)) :
    (dats m 0 c).leaves 1 t = owns (c : Thread nD τ) (ms1 t) fullShare (outAt m c t) := by
  unfold Dat.leaves; rw [live1 t h]
  show owns (c : Thread nD τ) (ms1 t) fullShare ((dats m 0 c).after 1 t) = _
  rw [after1]

set_option maxHeartbeats 4800000 in
/-- The body at any point: by the column tile, one of the three runs, on the tile as fetched (whatever fills the buffer
    past the array's end) and the scratch columns at the state the point before left (at anything at a first tile). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).owesAt () t.succ = (dats m 0 c).owesAt () t.castSucc from rfl]
  rw [show (dats m 0 c).Φ t.succ = PhiS m c (t.val + 1) t.isLt from rfl, PhiS_succ, leaves0]
  have hN : t.val < 160 := lt_of_lt_of_eq t.isLt (show cfg0.N = 160 from N_0)
  by_cases h0 : t.val % 5 = 0
  · have h1 : ¬t.val % 5 = 4 := by omega
    have hc0 : condFirst (grid0.coords t) := (hcondFirst t).mpr h0
    have hc1 : ¬condLast (grid0.coords t) := fun h => h1 ((hcondLast t).mp h)
    rw [leaves1_idle m c t hc1, stAt_first m c t h0]
    by_cases hz : t.val = 0
    · rw [PhiS_castSucc m c t, PhiS_zero m c _ _ hz, PhiA_eq]
      iintro ⟨⟨⟨HM, HL⟩, Hg⟩, Ho, ⟨%d0, H0⟩, ⟨%d1, H1⟩⟩
      iapply ((runFirst c (grid0.coords t) (ms0 t) (hs0 t) (ms1 t) (hs1 t) scM (Memref.isWhole_whole _) scL (Memref.isWhole_whole _) hc0 hc1 (win0_0.fill (grid0.coords t) d0 (iblk m c 0 t))).2.2 _ Set.univ _)
      isplitl [H0]; · iexact H0
      isplitl [H1]; · iexact H1
      isplitl [HM]; · iexact HM
      isplitl [HL]; · iexact HL
      iintro ⟨H0, H1, ⟨%em, HM⟩, ⟨%el, HL⟩⟩
      isplitl [HM HL Hg]
      · isplitl [HM HL]
        · isplitl [HM]
          · unfold owns; iexists _; isplitr
            swap; · iexact HM
            ipureintro
            exact (firstM c _ _ _ _ _ _ _ _ _ hc0 hc1 _ em).trans (congrArg Prod.fst (stepSt_fill t d0 _ (iblk m c 0 t) initSt))
          · unfold owns; iexists _; isplitr
            swap; · iexact HL
            ipureintro
            exact (firstL c _ _ _ _ _ _ _ _ _ hc0 hc1 _ el).trans (congrArg Prod.snd (stepSt_fill t d0 _ (iblk m c 0 t) initSt))
        iexact Hg
      isplitl [Ho]; · iexact Ho
      isplitl [H0]; · iexists d0; iexact H0
      iexists d1; iexact H1
    · rw [PhiS_castSucc m c t, PhiS_pos m c _ _ hz]
      iintro ⟨⟨⟨HM, HL⟩, Hg⟩, Ho, ⟨%d0, H0⟩, ⟨%d1, H1⟩⟩
      iapply ((runFirst c (grid0.coords t) (ms0 t) (hs0 t) (ms1 t) (hs1 t) scM (Memref.isWhole_whole _) scL (Memref.isWhole_whole _) hc0 hc1 (win0_0.fill (grid0.coords t) d0 (iblk m c 0 t))).2.2 _ Set.univ _)
      isplitl [H0]; · iexact H0
      isplitl [H1]; · iexact H1
      isplitl [HM]; · iexists _; iexact HM
      isplitl [HL]; · iexists _; iexact HL
      iintro ⟨H0, H1, ⟨%em, HM⟩, ⟨%el, HL⟩⟩
      isplitl [HM HL Hg]
      · isplitl [HM HL]
        · isplitl [HM]
          · unfold owns; iexists _; isplitr
            swap; · iexact HM
            ipureintro
            exact (firstM c _ _ _ _ _ _ _ _ _ hc0 hc1 _ em).trans (congrArg Prod.fst (stepSt_fill t d0 _ (iblk m c 0 t) initSt))
          · unfold owns; iexists _; isplitr
            swap; · iexact HL
            ipureintro
            exact (firstL c _ _ _ _ _ _ _ _ _ hc0 hc1 _ el).trans (congrArg Prod.snd (stepSt_fill t d0 _ (iblk m c 0 t) initSt))
        iexact Hg
      isplitl [Ho]; · iexact Ho
      isplitl [H0]; · iexists d0; iexact H0
      iexists d1; iexact H1
  · have hz : t.val ≠ 0 := fun hz => h0 (by rw [hz])
    have hc0 : ¬condFirst (grid0.coords t) := fun h => h0 ((hcondFirst t).mp h)
    rw [PhiS_castSucc m c t, PhiS_pos m c _ _ hz, stAt_next m c t h0]
    by_cases h1 : t.val % 5 = 4
    · have hc1 : condLast (grid0.coords t) := (hcondLast t).mpr h1
      rw [leaves1_last m c t hc1]
      unfold outAt; rw [stAt_next m c t h0]
      iintro ⟨⟨⟨HM, HL⟩, Hg⟩, Ho, ⟨%d0, H0⟩, ⟨%d1, H1⟩⟩
      iapply ((runLast c (grid0.coords t) (ms0 t) (hs0 t) (ms1 t) (hs1 t) scM (Memref.isWhole_whole _) scL (Memref.isWhole_whole _) hc0 hc1 (win0_0.fill (grid0.coords t) d0 (iblk m c 0 t)) _ _).2.2.2 Set.univ _)
      isplitl [H0]; · iexact H0
      isplitl [H1]; · iexists _; iexact H1
      isplitl [HM]; · iexact HM
      isplitl [HL]; · iexact HL
      iintro ⟨H0, ⟨%eo, H1⟩, ⟨%em, HM⟩, ⟨%el, HL⟩⟩
      isplitl [HM HL Hg]
      · isplitl [HM HL]
        · isplitl [HM]
          · unfold owns; iexists _; isplitr
            swap; · iexact HM
            ipureintro
            exact (lastM c _ _ _ _ _ _ _ _ _ hc0 hc1 _ _ _ em).trans (congrArg Prod.fst (stepSt_fill t d0 _ (iblk m c 0 t) _))
          · unfold owns; iexists _; isplitr
            swap; · iexact HL
            ipureintro
            exact (lastL c _ _ _ _ _ _ _ _ _ hc0 hc1 _ _ _ el).trans (congrArg Prod.snd (stepSt_fill t d0 _ (iblk m c 0 t) _))
        iexact Hg
      isplitl [Ho]; · iexact Ho
      isplitl [H0]; · iexists d0; iexact H0
      unfold owns; iexists _; isplitr
      swap; · iexact H1
      ipureintro
      refine (lastO c _ _ _ _ _ _ _ _ _ hc0 hc1 _ _ _ eo).trans ?_
      have e := stepSt_fill t d0 (fun _ => Scalar.ofBits .f32 0#32) (iblk m c 0 t) (stAt m c (t.val - 1) (Nat.lt_of_le_of_lt (Nat.sub_le _ _) t.isLt))
      exact congrArg (fun p : Vec F S512x1 .f32 × Vec F S512x1 .f32 => k0_pay1 p.1 p.2) e
    · have hc1 : ¬condLast (grid0.coords t) := fun h => h1 ((hcondLast t).mp h)
      rw [leaves1_idle m c t hc1]
      iintro ⟨⟨⟨HM, HL⟩, Hg⟩, Ho, ⟨%d0, H0⟩, ⟨%d1, H1⟩⟩
      iapply ((runMid c (grid0.coords t) (ms0 t) (hs0 t) (ms1 t) (hs1 t) scM (Memref.isWhole_whole _) scL (Memref.isWhole_whole _) hc0 hc1 (win0_0.fill (grid0.coords t) d0 (iblk m c 0 t)) _ _).2.2 _ Set.univ _)
      isplitl [H0]; · iexact H0
      isplitl [H1]; · iexact H1
      isplitl [HM]; · iexact HM
      isplitl [HL]; · iexact HL
      iintro ⟨H0, H1, ⟨%em, HM⟩, ⟨%el, HL⟩⟩
      isplitl [HM HL Hg]
      · isplitl [HM HL]
        · isplitl [HM]
          · unfold owns; iexists _; isplitr
            swap; · iexact HM
            ipureintro
            exact (midM c _ _ _ _ _ _ _ _ _ hc0 hc1 _ _ _ em).trans (congrArg Prod.fst (stepSt_fill t d0 _ (iblk m c 0 t) _))
          · unfold owns; iexists _; isplitr
            swap; · iexact HL
            ipureintro
            exact (midL c _ _ _ _ _ _ _ _ _ hc0 hc1 _ _ _ el).trans (congrArg Prod.snd (stepSt_fill t d0 _ (iblk m c 0 t) _))
        iexact Hg
      isplitl [Ho]; · iexact Ho
      isplitl [H0]; · iexists d0; iexact H0
      iexists d1; iexact H1

/-- The body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch columns' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 160 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HM, HL⟩, Hg⟩
  isplitl [HM HL]
  · isplitl [HM]
    · iexists _; iexact HM
    · iexists _; iexact HL
  iexact Hg

/-! ## The run and the frame -/

set_option backward.isDefEq.respectTransparency.types false in
/-- Every weakly fair execution of @main terminates, and every final state has each array of the pipeline at what the
    proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main terminates, faults nowhere, and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IBodyDefs.lean ====
/-
  The row-wise log-sum-exp kernel, stated once for the proof of its frame: the grid is 32 row blocks by 5 column tiles,
  point `t` is row block `t / 5`, column tile `t % 5`. The body's two branches are decided by the column tile alone: the
  first tile of a row block (`t % 5 = 0`) resets the running maximum and the running sum kept in the two scratch columns,
  the last tile (`t % 5 = 4`) stores the row block's 512 results, and only there is the result window's buffer touched.
  Here: the two conditions in closed form over the grid, where the result window is idle, the buffers the body is called
  with at a point, and the region invariant with the two scratch columns named.
-/
import proofs.«109123_j52613349376066_2_alg».proof.Proof.Gen.KernelIdeal.Frame
import proofs.«109123_j52613349376066_2_alg».proof.Proof.Gen.KernelIdeal.Skeleton

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, from the grid coordinates -/

/-- The body's first `scf.if`: the point is the first column tile of its row block. -/
abbrev condFirst (i : grid0.Coords) : Prop :=
  (Scalar.cmpi .ne (Scalar.extui (Scalar.cmpi .eq (BitVec.ofNat 32 (i 1).val) 0#32)) 0#32) = 1#1
/-- It holds at the points ≡ 0 (mod 5). -/
theorem hcondFirst : ∀ t : Fin cfg0.N, condFirst (grid0.coords t) ↔ t.val % 5 = 0 :=
  (by decide +kernel : ∀ t : Fin grid0.N, condFirst (grid0.coords t) ↔ t.val % 5 = 0)

/-- The body's second `scf.if`: the point is the last column tile of its row block. -/
abbrev condLast (i : grid0.Coords) : Prop := k0_cond2 i = 1#1
/-- It holds at the points ≡ 4 (mod 5). -/
theorem hcondLast : ∀ t : Fin cfg0.N, condLast (grid0.coords t) ↔ t.val % 5 = 4 :=
  (by decide +kernel : ∀ t : Fin grid0.N, condLast (grid0.coords t) ↔ t.val % 5 = 4)

/-! ## Where the windows are idle -/

/-- The input window is never idle. -/
theorem live0 : ∀ t : Fin cfg0.N, cfg0.idle 0 (grid0.coords t) = false := by decide +kernel
/-- Away from the last column tile the result window is idle: the body stores nothing into it, -/
theorem idle1 : ∀ t : Fin cfg0.N, ¬condLast (grid0.coords t) → cfg0.idle 1 (grid0.coords t) = true := by decide +kernel
/-- and its block is not written back there. -/
theorem noFlush1 : ∀ t : Fin cfg0.N, ¬condLast (grid0.coords t) → (cfg0.win 1).flush t = false := by decide +kernel
/-- At the last column tile the result window is live, -/
theorem live1 : ∀ t : Fin cfg0.N, condLast (grid0.coords t) → cfg0.idle 1 (grid0.coords t) = false := by decide +kernel
/-- and its block is written back. -/
theorem flush1 : ∀ t : Fin cfg0.N, condLast (grid0.coords t) → (cfg0.win 1).flush t = true := by decide +kernel

/-! ## The buffers the body is called with -/

/-- The input window's current staging buffer at point `t`, and that it is a whole buffer. -/
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
/-- The result window's. -/
abbrev ms1 (t : Fin cfg0.N) : Memref sig .tc .vmem S512 .f32 := win0_1.stage (cfg0.slots t 1)
abbrev hs1 (t : Fin cfg0.N) : (ms1 t).IsWhole := hstage0_1 ((cfg0.slots t 1).cast nbuf0_1)
/-- The scratch column of running maxima and the scratch column of running sums. -/
abbrev scM : Memref sig .tc .vmem S512x1 .f32 := Memref.whole cc0_scratch0
abbrev scL : Memref sig .tc .vmem S512x1 .f32 := Memref.whole cc0_scratch1

/-- The region's invariant with the two scratch columns as buffers owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA; rw [scopedRest0_eq]; simp only [scM, scL, owns_whole]; try rfl

end Cert.KernelIdeal.Hand

end
-- ==== Proof.IBodyRunA.lean ====
/-
  The body at the FIRST column tile of a row block, run once over any whole buffers: it resets the two scratch columns (the
  running maximum to the finite floor value, the running sum to zero), folds the tile in, and leaves the result window's
  buffer untouched. What each scratch column ends with is found by the run as the list of its stores, last first.
-/
import proofs.«109123_j52613349376066_2_alg».proof.Proof.IBodyDefs

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole buffers — the input tile at `x0`, the result buffer at any `x1`, the scratch columns at anything — the body
    runs to its end with the input and the result buffer as they were and each scratch column holding its stores. -/
noncomputable def runFirst (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i)
    (x0 : Vec F S512x2048 .f32) :
    Σ' (LM : List (View.Piece (Elt F) S512x1 .f32)), { LL : List (View.Piece (Elt F) S512x1 .f32) //
      ∀ (x1 : Vec F S512 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LM) ∗ (∃ f, arg5.view.loc (c : Thread nD τ) ↦[arg5.view.set]{fullShare} arg5.view.writes (Elt F) f LL)) -∗ K ⟨⟩))
          ⊢ wp frame (wpE (defs₀ (F := F)) Variants.none c none) E (cc0__lse_kernel i arg2 harg2 arg3 harg3 arg4 harg4 arg5 harg5) K } := by
  refine ⟨?_, ?_, fun x1 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%d4, %f4, -, HM⟩, ⟨%d5, %f5, -, HL⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HL

end Cert.KernelIdeal.Hand

end
-- ==== Proof.IBodyRunB.lean ====
/-
  The body at a MIDDLE column tile (neither first nor last), run once over any whole buffers: it folds the tile into the
  running maximum and the running sum the scratch columns hold, and leaves the result window's buffer untouched.
-/
import proofs.«109123_j52613349376066_2_alg».proof.Proof.IBodyRunA

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole buffers — the input tile at `x0`, the result buffer at any `x1`, the scratch columns at `xm` and `xl` — the
    body runs to its end with the input and the result buffer as they were and each scratch column holding its stores. -/
noncomputable def runMid (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i)
    (x0 : Vec F S512x2048 .f32) (xm : Vec F S512x1 .f32) (xl : Vec F S512x1 .f32) :
    Σ' (LM : List (View.Piece (Elt F) S512x1 .f32)), { LL : List (View.Piece (Elt F) S512x1 .f32) //
      ∀ (x1 : Vec F S512 .f32) (E : Set ℕ) (K : PUnit → sProp 𝕄),
        iprop(owns (c : Thread nD τ) arg2 fullShare x0 ∗ owns (c : Thread nD τ) arg3 fullShare x1 ∗ owns (c : Thread nD τ) arg4 fullShare xm ∗ owns (c : Thread nD τ) arg5 fullShare xl
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LM) ∗ (∃ f, arg5.view.loc (c : Thread nD τ) ↦[arg5.view.set]{fullShare} arg5.view.writes (Elt F) f LL)) -∗ K ⟨⟩))
          ⊢ wp frame (wpE (defs₀ (F := F)) Variants.none c none) E (cc0__lse_kernel i arg2 harg2 arg3 harg3 arg4 harg4 arg5 harg5) K } := by
  refine ⟨?_, ?_, fun x1 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f4, %hf4, HM⟩, ⟨%f5, %hf5, HL⟩, Hk⟩
    obtain rfl := harg2.eq_unread hf0; obtain rfl := harg3.eq_unread hf1
    obtain rfl := harg4.eq_unread hf4; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HL

end Cert.KernelIdeal.Hand

end
-- ==== Proof.IBodyRunC.lean ====
/-
  The body at the LAST column tile of a row block, run once over any whole buffers: it folds the tile into the running
  maximum and the running sum, then stores maximum + log(sum), one value per row, over the whole result buffer.
-/
import proofs.«109123_j52613349376066_2_alg».proof.Proof.IBodyRunB

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole buffers — the input tile at `x0`, the result buffer at anything, the scratch columns at `xm` and `xl` — the
    body runs to its end with the input as it was and the result buffer and each scratch column holding its stores. -/
noncomputable def runLast (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i)
    (x0 : Vec F S512x2048 .f32) (xm : Vec F S512x1 .f32) (xl : Vec F S512x1 .f32) :
    Σ' (LO : List (View.Piece (Elt F) S512 .f32)) (LM : List (View.Piece (Elt F) S512x1 .f32)), { LL : List (View.Piece (Elt F) S512x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xm ∗ owns (c : Thread nD τ) arg5 fullShare xl
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LM) ∗ (∃ f, arg5.view.loc (c : Thread nD τ) ↦[arg5.view.set]{fullShare} arg5.view.writes (Elt F) f LL)) -∗ K ⟨⟩))
          ⊢ wp frame (wpE (defs₀ (F := F)) Variants.none c none) E (cc0__lse_kernel i arg2 harg2 arg3 harg3 arg4 harg4 arg5 harg5) K } := by
  refine ⟨?_, ?_, ?_, fun E K => ?run⟩
  case run =>
    simp only [cc0__lse_kernel_eq_skeleton]; unfold cc0__lse_kernel_skel
    simp only [k0_part1_eq_skeleton]
    unfold owns
    iintro ⟨⟨%f0, %hf0, H0⟩, ⟨%d1, %f1, -, H1⟩, ⟨%f4, %hf4, HM⟩, ⟨%f5, %hf5, HL⟩, Hk⟩
    obtain rfl := harg2.eq_unread hf0
    obtain rfl := harg4.eq_unread hf4; obtain rfl := harg5.eq_unread hf5
    sl_exec (disch := first | exact hc0 | exact hc1)
    sl_step
    iapply Hk
    isplitl [H0]
    · iexists _; isplitr; · ipureintro; exact harg2.read_unread _
      iexact H0
    isplitl [H1]; · iexists _; iexact H1
    isplitl [HM]; · iexists _; iexact HM
    iexists _; iexact HL

end Cert.KernelIdeal.Hand

end
-- ==== Proof.IBodyPieces.lean ====
/-
  What the body leaves in each buffer, as a function of what the buffers held.

  Every store of the body fills a whole buffer, so a buffer ends at its LAST store's value, and every load reads a whole
  buffer: the tile, or a scratch column at what the store before it left. Read back in this way the three runs say: the
  running-maximum column ends at `max(previous maximum, row maxima of the masked tile)`, the running-sum column at
  `exp(previous maximum − new maximum) · previous sum + row sums of exp(masked tile − new maximum)` — at the first tile
  with the floor value and zero in the place of the previous ones —, and at the last tile the result buffer at
  `new maximum + log(new sum)`, row by row.
-/
import proofs.«109123_j52613349376066_2_alg».proof.Proof.IBodyRunC
import Idealize.ShloMosaic.Lib.Pipeline.Value

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-! ## Each run's stores cover the buffer they go to -/

theorem coverFirstM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i) (x0 : Vec F S512x2048 .f32) (y : S512x1.Idx) :
    ∃ pc ∈ (runFirst (F := F) c i arg2 harg2 arg3 harg3 arg4 harg4 arg5 harg5 hc0 hc1 x0).1, y ∈ pc.1.set :=
  View.cover_of_tiledL _ S512x1.size (by sl_kernel_rfl) y
theorem coverFirstL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i) (x0 : Vec F S512x2048 .f32) (y : S512x1.Idx) :
    ∃ pc ∈ (runFirst (F := F) c i arg2 harg2 arg3 harg3 arg4 harg4 arg5 harg5 hc0 hc1 x0).2.1, y ∈ pc.1.set :=
  View.cover_of_tiledL _ S512x1.size (by sl_kernel_rfl) y
theorem coverMidM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i) (x0 : Vec F S512x2048 .f32) (xm xl : Vec F S512x1 .f32) (y : S512x1.Idx) :
    ∃ pc ∈ (runMid (F := F) c i arg2 harg2 arg3 harg3 arg4 harg4 arg5 harg5 hc0 hc1 x0 xm xl).1, y ∈ pc.1.set :=
  View.cover_of_tiledL _ S512x1.size (by sl_kernel_rfl) y
theorem coverMidL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i) (x0 : Vec F S512x2048 .f32) (xm xl : Vec F S512x1 .f32) (y : S512x1.Idx) :
    ∃ pc ∈ (runMid (F := F) c i arg2 harg2 arg3 harg3 arg4 harg4 arg5 harg5 hc0 hc1 x0 xm xl).2.1, y ∈ pc.1.set :=
  View.cover_of_tiledL _ S512x1.size (by sl_kernel_rfl) y
theorem coverLastO (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (y : S512.Idx) :
    ∃ pc ∈ (runLast (F := F) c i arg2 harg2 arg3 harg3 arg4 harg4 arg5 harg5 hc0 hc1 x0 xm xl).1, y ∈ pc.1.set :=
  View.cover_of_tiledL _ S512.size (by sl_kernel_rfl) y
theorem coverLastM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (y : S512x1.Idx) :
    ∃ pc ∈ (runLast (F := F) c i arg2 harg2 arg3 harg3 arg4 harg4 arg5 harg5 hc0 hc1 x0 xm xl).2.1, y ∈ pc.1.set :=
  View.cover_of_tiledL _ S512x1.size (by sl_kernel_rfl) y
theorem coverLastL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (y : S512x1.Idx) :
    ∃ pc ∈ (runLast (F := F) c i arg2 harg2 arg3 harg3 arg4 harg4 arg5 harg5 hc0 hc1 x0 xm xl).2.2.1, y ∈ pc.1.set :=
  View.cover_of_tiledL _ S512x1.size (by sl_kernel_rfl) y

/-! ## What they leave -/

/-- First tile: the maximum column ends at the fold of the tile into the floor value, -/
theorem firstM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i) (x0 : Vec F S512x2048 .f32) (f : arg4.view.ty.Contents (Elt F)) :
    arg4.view.read (Elt F) (arg4.view.writes (Elt F) f (runFirst (F := F) c i arg2 harg2 arg3 harg3 arg4 harg4 arg5 harg5 hc0 hc1 x0).1) = k0_pay8 i x0 (k0_pay2 (F := F)) := by
  rw [View.read_writes_eq_canon _ _ _ (fun y => View.cover_of_tiledL _ S512x1.size (by sl_kernel_rfl) y)]
  unfold runFirst
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]
/-- and the sum column at the fold of the tile into zero. -/
theorem firstL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : condFirst i) (hc1 : ¬condLast i) (x0 : Vec F S512x2048 .f32) (f : arg5.view.ty.Contents (Elt F)) :
    arg5.view.read (Elt F) (arg5.view.writes (Elt F) f (runFirst (F := F) c i arg2 harg2 arg3 harg3 arg4 harg4 arg5 harg5 hc0 hc1 x0).2.1) = k0_pay7 i x0 (k0_pay2 (F := F)) (k0_pay3 (F := F)) := by
  rw [View.read_writes_eq_canon _ _ _ (fun y => View.cover_of_tiledL _ S512x1.size (by sl_kernel_rfl) y)]
  unfold runFirst
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]

/-- Middle tile: the maximum column ends at the fold of the tile into what it held, -/
theorem midM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i) (x0 : Vec F S512x2048 .f32) (xm xl : Vec F S512x1 .f32) (f : arg4.view.ty.Contents (Elt F)) :
    arg4.view.read (Elt F) (arg4.view.writes (Elt F) f (runMid (F := F) c i arg2 harg2 arg3 harg3 arg4 harg4 arg5 harg5 hc0 hc1 x0 xm xl).1) = k0_pay8 i x0 xm := by
  rw [View.read_writes_eq_canon _ _ _ (fun y => View.cover_of_tiledL _ S512x1.size (by sl_kernel_rfl) y)]
  unfold runMid
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]
/-- and the sum column likewise. -/
theorem midL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : ¬condLast i) (x0 : Vec F S512x2048 .f32) (xm xl : Vec F S512x1 .f32) (f : arg5.view.ty.Contents (Elt F)) :
    arg5.view.read (Elt F) (arg5.view.writes (Elt F) f (runMid (F := F) c i arg2 harg2 arg3 harg3 arg4 harg4 arg5 harg5 hc0 hc1 x0 xm xl).2.1) = k0_pay7 i x0 xm xl := by
  rw [View.read_writes_eq_canon _ _ _ (fun y => View.cover_of_tiledL _ S512x1.size (by sl_kernel_rfl) y)]
  unfold runMid
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]

/-- Last tile: the two columns as at a middle tile, -/
theorem lastM (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (f : arg4.view.ty.Contents (Elt F)) :
    arg4.view.read (Elt F) (arg4.view.writes (Elt F) f (runLast (F := F) c i arg2 harg2 arg3 harg3 arg4 harg4 arg5 harg5 hc0 hc1 x0 xm xl).2.1) = k0_pay8 i x0 xm := by
  rw [View.read_writes_eq_canon _ _ _ (fun y => View.cover_of_tiledL _ S512x1.size (by sl_kernel_rfl) y)]
  unfold runLast
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]
theorem lastL (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (f : arg5.view.ty.Contents (Elt F)) :
    arg5.view.read (Elt F) (arg5.view.writes (Elt F) f (runLast (F := F) c i arg2 harg2 arg3 harg3 arg4 harg4 arg5 harg5 hc0 hc1 x0 xm xl).2.2.1) = k0_pay7 i x0 xm xl := by
  rw [View.read_writes_eq_canon _ _ _ (fun y => View.cover_of_tiledL _ S512x1.size (by sl_kernel_rfl) y)]
  unfold runLast
  dsimp only
  sl_unfold_words
  rw [View.canon_cons_unit_zero hz2]
  simp only [View.readAt_eq_ld, harg2.read_unread, harg4.read_unread, harg5.read_unread, View.ld_unit_zero (S := S512x2048) hz2,
    View.ld_unit_zero (S := S512x1) hz2, View.readCov_unit_zero (S := S512x1) _ hz2]
/-- and the result buffer at the new maximum plus the logarithm of the new sum. -/
theorem lastO (c : Dev nD) (i : grid0.Coords) (arg2 : Memref sig .tc .vmem S512x2048 .f32) (harg2 : arg2.IsWhole) (arg3 : Memref sig .tc .vmem S512 .f32) (harg3 : arg3.IsWhole) (arg4 : Memref sig .tc .vmem S512x1 .f32) (harg4 : arg4.IsWhole) (arg5 : Memref sig .tc .vmem S512x1 .f32) (harg5 : arg5.IsWhole) (hc0 : ¬condFirst i) (hc1 : condLast i) (x0 : Vec F S512x2048 .f32) (xm xl : Vec F S512x1 .f32) (f : arg3.view.ty.Contents (Elt F)) :
    arg3.view.read (Elt F) (arg3.view.writes (Elt F) f (runLast (F := F) c i arg2 harg2 arg3 harg3 arg4 harg4 arg5 harg5 hc0 hc1 x0 xm xl).1) = k0_pay1 (k0_pay8 i x0 xm) (k0_pay7 i x0 xm xl) := by
  rw [View.read_writes_eq_canon _ _ _ (fun y => View.cover_of_tiledL _ S512.size (by sl_kernel_rfl) y)]
  unfold runLast
  dsimp only
  sl_unfold_words
  rw [View.canon_cons_unit_zero hz1]
  simp only [View.readAt_eq_ld, harg2.read_unread, harg4.read_unread, harg5.read_unread, View.ld_unit_zero (S := S512x2048) hz2,
    View.ld_unit_zero (S := S512x1) hz2, View.readCov_unit_zero (S := S512x1) _ hz2]

end Cert.KernelIdeal.Hand

end
-- ==== Proof.IBodyMask.lean ====
/-
  The column mask and the tail of a clipped tile.

  Tile `j` of a row block covers columns `2048 j … 2048 j + 2047`; the array has 10000 columns, so the last tile (`j = 4`)
  reaches past the array's end from its column 1808 on, and there the staging buffer holds words nothing names. The body
  never uses them: it first replaces every entry whose column `2048 j + k` is not below 10000 by the floor value, and the
  positions past the array's end are exactly such entries. So the masked tile — and with it everything the body computes —
  is the same whatever fills the buffer's tail.
-/
import proofs.«109123_j52613349376066_2_alg».proof.Proof.IBodyDefs
import Idealize.ShloMosaic.Lib.Pipeline.Value
import Idealize.ShloMosaic.Lib.ValueIdx

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The signed comparison of `2048 a + b` with 10000 on 32-bit words is the comparison of the numbers, for a column tile
    `a < 5` and a column `b < 2048` inside it (nothing wraps: the sum is below 10240). -/
theorem slt_cols : ∀ (a : Fin 5) (b : Fin 2048),
    (IntOp.cmpi .slt (IntOp.addi (Scalar.muli (BitVec.ofNat 32 a.val) 2048#32) (BitVec.ofNat 32 b.val)) 10000#32 : BitVec 1)
      = BitVec.ofBool (decide (a.val * 2048 + b.val < 10000)) := by decide +kernel

/-- A point's column tile is its number modulo 5, -/
theorem coords_col : ∀ t : Fin cfg0.N, ((grid0.coords t) 1).val = t.val % 5 :=
  (by decide +kernel : ∀ t : Fin grid0.N, ((grid0.coords t) 1).val = t.val % 5)
/-- the tile has all its 512 rows inside the array, -/
theorem xsize_rows : ∀ t : Fin cfg0.N, win0_0.xsize (grid0.coords t) 0 = 512 :=
  (by decide +kernel : ∀ t : Fin grid0.N, win0_0.xsize (grid0.coords t) 0 = 512)
/-- and of its 2048 columns all but for the last tile, which has 1808. -/
theorem xsize_cols : ∀ t : Fin cfg0.N, win0_0.xsize (grid0.coords t) 1 = if t.val % 5 = 4 then 1808 else 2048 :=
  (by decide +kernel : ∀ t : Fin grid0.N, win0_0.xsize (grid0.coords t) 1 = if t.val % 5 = 4 then 1808 else 2048)

/-- The body's column mask at a position of the tile: whether the position's column is inside the array. -/
theorem mask_apply (t : Fin cfg0.N) (r : Fin 512) (k : Fin 2048) :
    k0_pay4 (grid0.coords t) (ix2 r k) = BitVec.ofBool (decide (t.val % 5 * 2048 + k.val < 10000)) := by
  have h5 : t.val % 5 < 5 := Nat.mod_lt _ (by decide)
  have hc := coords_col t
  unfold k0_pay4
  simp only [cmpi, addi, broadcast]
  rw [iota_single_apply, hc]
  exact slt_cols ⟨t.val % 5, h5⟩ k

/-- A position of the tile the fetch does not fill lies past the array's last column: the mask is off there. -/
theorem mask_off_of_not_moved (t : Fin cfg0.N) (j : S512x2048.Idx) (h : ¬win0_0.moved (grid0.coords t) j = true) :
    k0_pay4 (grid0.coords t) j = 0#1 := by
  obtain ⟨r, k, rfl⟩ : ∃ (r : Fin 512) (k : Fin 2048), j = ix2 r k := ⟨j 0, j 1, eq_ix2 j⟩
  rw [mask_apply]
  rw [win0_0.moved_iff] at h
  have hk : ¬ (k.val < win0_0.xsize (grid0.coords t) 1) := fun hk => h fun a => by
    match a with
    | ⟨0, _⟩ => exact lt_of_lt_of_eq r.isLt (xsize_rows t).symm
    | ⟨1, _⟩ => exact hk
  rw [xsize_cols] at hk
  have hk2 := k.isLt
  split at hk
  · next h4 => rw [h4]; have : ¬ (4 * 2048 + k.val < 10000) := by omega
               simp [this]
  · exact absurd hk2 hk

/-- The masked tile is the same whatever the buffer holds past the array's end. -/
theorem masked_fill (t : Fin cfg0.N) (d d' : S512x2048.Idx → Elt F .f32) (g : (win0_0.xblock (grid0.coords t)).Idx → Elt F .f32) :
    k0_pay5 (F := F) (grid0.coords t) (win0_0.fill (grid0.coords t) d g) = k0_pay5 (grid0.coords t) (win0_0.fill (grid0.coords t) d' g) := by
  funext j
  unfold k0_pay5
  simp only [select_apply]
  by_cases hm : win0_0.moved (grid0.coords t) j = true
  · unfold Pipeline.Window.fill; rw [dif_pos hm, dif_pos hm]
  · rw [mask_off_of_not_moved t j hm]; rfl

end Cert.KernelIdeal.Hand

end
-- ==== Proof.IBodyDat.lean ====
/-
  The proof data of the region and its body obligation.

  Point `t` fetches tile `t % 5` of row block `t / 5`; past the array's last column (the last tile's columns 1808 … 2047)
  the staging buffer holds whatever the fetch left there. The running state after point `t` is the pair (maximum column,
  sum column): at the first tile of a row block the fold of the tile into (floor value, zero), afterwards the fold of the
  tile into the state the point before left. It is stated over the tile with a FIXED value past the array's end; the
  body's masking makes that choice immaterial, so whatever the buffer's tail really holds the body leaves this state.
  The invariant before point `n + 1` is the two scratch columns at the state after point `n`; the result window's buffer
  is touched at the last tile only, where it ends at maximum + log(sum), row by row.
-/
import proofs.«109123_j52613349376066_2_alg».proof.Proof.IBodyPieces
import proofs.«109123_j52613349376066_2_alg».proof.Proof.IBodyMask

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tile and the running state -/

/-- The tile of point `t`: its part inside the array as the region finds it, a fixed value past the array's end. -/
def tile (c : Dev nD) (t : Fin cfg0.N) : Vec F S512x2048 .f32 :=
  win0_0.fill (grid0.coords t) (fun _ => Scalar.ofBits .f32 0#32) (iblk m c 0 t)

/-- One fold of a tile into a state (maximum column, sum column). -/
def stepSt (i : grid0.Coords) (x : Vec F S512x2048 .f32) (p : Vec F S512x1 .f32 × Vec F S512x1 .f32) :
    Vec F S512x1 .f32 × Vec F S512x1 .f32 :=
  (k0_pay8 i x p.1, k0_pay7 i x p.1 p.2)

/-- The state a row block starts from: the floor value and zero. -/
def initSt : Vec F S512x1 .f32 × Vec F S512x1 .f32 := (k0_pay2 (F := F), k0_pay3 (F := F))

/-- The fold sees the tile only through its masked form: what fills the buffer past the array's end is immaterial. -/
theorem stepSt_fill (t : Fin cfg0.N) (d d' : S512x2048.Idx → Elt F .f32) (g : (win0_0.xblock (grid0.coords t)).Idx → Elt F .f32)
    (p : Vec F S512x1 .f32 × Vec F S512x1 .f32) :
    stepSt (grid0.coords t) (win0_0.fill (grid0.coords t) d g) p = stepSt (grid0.coords t) (win0_0.fill (grid0.coords t) d' g) p := by
  unfold stepSt k0_pay8 k0_pay7 k0_pay6
  simp only [masked_fill t d d' g]

/-- The state after point `n`. -/
def stAt (c : Dev nD) : (n : ℕ) → n < cfg0.N → Vec F S512x1 .f32 × Vec F S512x1 .f32
  | 0, hn => stepSt (grid0.coords ⟨0, hn⟩) (tile m c ⟨0, hn⟩) initSt
  | n + 1, hn => stepSt (grid0.coords ⟨n + 1, hn⟩) (tile m c ⟨n + 1, hn⟩)
      (if (n + 1) % 5 = 0 then initSt else stAt c n (Nat.lt_of_succ_lt hn))

/-- At the first tile of a row block the state restarts. -/
theorem stAt_first (c : Dev nD) (t : Fin cfg0.N) (h : t.val % 5 = 0) :
    stAt m c t.val t.isLt = stepSt (grid0.coords t) (tile m c t) initSt := by
  obtain ⟨n, hn⟩ := t
  cases n with
  | zero => rfl
  | succ n => exact congrArg _ (if_pos h)

/-- At any other tile it continues from the point before. -/
theorem stAt_next (c : Dev nD) (t : Fin cfg0.N) (h : ¬t.val % 5 = 0) :
    stAt m c t.val t.isLt = stepSt (grid0.coords t) (tile m c t) (stAt m c (t.val - 1) (Nat.lt_of_le_of_lt (Nat.sub_le _ _) t.isLt)) := by
  obtain ⟨n, hn⟩ := t
  cases n with
  | zero => exact absurd (Nat.zero_mod _) h
  | succ n => exact congrArg _ (if_neg h)

/-- What the last tile of a row block stores: maximum + log(sum), one value per row. -/
def outAt (c : Dev nD) (t : Fin cfg0.N) : Vec F S512 .f32 :=
  k0_pay1 (stAt m c t.val t.isLt).1 (stAt m c t.val t.isLt).2

/-! ## The invariant -/

/-- Before position `n`: at the region's entry the scratch columns hold anything; afterwards the state the point before left. -/
def PhiS (c : Dev nD) : (n : ℕ) → n ≤ cfg0.N → sProp 𝕄
  | 0, _ => Pipeline.ΦA spec0 c
  | n + 1, hn => iprop(iprop(owns (c : Thread nD τ) scM fullShare (stAt m c n hn).1 ∗ owns (c : Thread nD τ) scL fullShare (stAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (stAt m c n hn).1 ∗ owns (c : Thread nD τ) scL fullShare (stAt m c n hn).2) ∗ (∃ r, prngReg c r)) := rfl

theorem PhiS_pos (c : Dev nD) (n : ℕ) (h : n ≤ cfg0.N) (hz : n ≠ 0) :
    PhiS m c n h = iprop(iprop(owns (c : Thread nD τ) scM fullShare (stAt m c (n - 1) (by omega)).1 ∗ owns (c : Thread nD τ) scL fullShare (stAt m c (n - 1) (by omega)).2) ∗ (∃ r, prngReg c r)) := by
  cases n with
  | zero => exact absurd rfl hz
  | succ n => rfl

/-! ## The proof data -/

/-- The arrays as the region finds them; after the body at point `t` the input's buffer at its tile and the result's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile m c t
    | ⟨1, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = tile m c t := by dsimp only [dats]
theorem after1 (c : Dev nD) (t : Fin cfg0.N) : (dats m 0 c).after 1 t = outAt m c t := by dsimp only [dats]

/-- The input's buffer as the body finds it: just fetched, the tile inside the array and `d` past its end. -/
theorem before0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq m c 0]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

/-- The input window's post: its buffer at the tile inside the array, anything past its end. -/
theorem leaves0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live0 t]
  show iprop(∃ d, owns (c : Thread nD τ) (ms0 t) fullShare (win0_0.fill (grid0.coords t) d (win0_0.cut (grid0.coords t) ((dats m 0 c).after 0 t)))) = _
  rw [after0]; unfold tile; rw [win0_0.cut_fill]

/-- The result window's post away from the last tile: its buffer as the body found it, -/
theorem leaves1_idle (c : Dev nD) (t : Fin cfg0.N) (h : ¬condLast (grid0.coords t)) :
    (dats m 0 c).leaves 1 t = iprop(∃ d, owns (c : Thread nD τ) (ms1 t) fullShare ((dats m 0 c).before 1 t d)) :=
  Dat.leaves_idle (dats m 0 c) 1 t (idle1 t h) (noFlush1 t h)

/-- and at the last tile: at the stored results. -/
theorem leaves1_last (c : Dev nD) (t : Fin cfg0.N) (h : condLast (grid0.coords t)) :
    (dats m 0 c).leaves 1 t = owns (c : Thread nD τ) (ms1 t) fullShare (outAt m c t) := by
  unfold Dat.leaves; rw [live1 t h]
  show owns (c : Thread nD τ) (ms1 t) fullShare ((dats m 0 c).after 1 t) = _
  rw [after1]

set_option maxHeartbeats 4800000 in
/-- The body at any point: by the column tile, one of the three runs, on the tile as fetched (whatever fills the buffer
    past the array's end) and the scratch columns at the state the point before left (at anything at a first tile). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).owesAt () t.succ = (dats m 0 c).owesAt () t.castSucc from rfl]
  rw [show (dats m 0 c).Φ t.succ = PhiS m c (t.val + 1) t.isLt from rfl, PhiS_succ, leaves0]
  have hN : t.val < 160 := lt_of_lt_of_eq t.isLt (show cfg0.N = 160 from N_0)
  by_cases h0 : t.val % 5 = 0
  · have h1 : ¬t.val % 5 = 4 := by omega
    have hc0 : condFirst (grid0.coords t) := (hcondFirst t).mpr h0
    have hc1 : ¬condLast (grid0.coords t) := fun h => h1 ((hcondLast t).mp h)
    rw [leaves1_idle m c t hc1, stAt_first m c t h0]
    by_cases hz : t.val = 0
    · rw [PhiS_castSucc m c t, PhiS_zero m c _ _ hz, PhiA_eq]
      iintro ⟨⟨⟨HM, HL⟩, Hg⟩, Ho, ⟨%d0, H0⟩, ⟨%d1, H1⟩⟩
      iapply ((runFirst c (grid0.coords t) (ms0 t) (hs0 t) (ms1 t) (hs1 t) scM (Memref.isWhole_whole _) scL (Memref.isWhole_whole _) hc0 hc1 (win0_0.fill (grid0.coords t) d0 (iblk m c 0 t))).2.2 _ Set.univ _)
      isplitl [H0]; · iexact H0
      isplitl [H1]; · iexact H1
      isplitl [HM]; · iexact HM
      isplitl [HL]; · iexact HL
      iintro ⟨H0, H1, ⟨%em, HM⟩, ⟨%el, HL⟩⟩
      isplitl [HM HL Hg]
      · isplitl [HM HL]
        · isplitl [HM]
          · unfold owns; iexists _; isplitr
            swap; · iexact HM
            ipureintro
            exact (firstM c _ _ _ _ _ _ _ _ _ hc0 hc1 _ em).trans (congrArg Prod.fst (stepSt_fill t d0 _ (iblk m c 0 t) initSt))
          · unfold owns; iexists _; isplitr
            swap; · iexact HL
            ipureintro
            exact (firstL c _ _ _ _ _ _ _ _ _ hc0 hc1 _ el).trans (congrArg Prod.snd (stepSt_fill t d0 _ (iblk m c 0 t) initSt))
        iexact Hg
      isplitl [Ho]; · iexact Ho
      isplitl [H0]; · iexists d0; iexact H0
      iexists d1; iexact H1
    · rw [PhiS_castSucc m c t, PhiS_pos m c _ _ hz]
      iintro ⟨⟨⟨HM, HL⟩, Hg⟩, Ho, ⟨%d0, H0⟩, ⟨%d1, H1⟩⟩
      iapply ((runFirst c (grid0.coords t) (ms0 t) (hs0 t) (ms1 t) (hs1 t) scM (Memref.isWhole_whole _) scL (Memref.isWhole_whole _) hc0 hc1 (win0_0.fill (grid0.coords t) d0 (iblk m c 0 t))).2.2 _ Set.univ _)
      isplitl [H0]; · iexact H0
      isplitl [H1]; · iexact H1
      isplitl [HM]; · iexists _; iexact HM
      isplitl [HL]; · iexists _; iexact HL
      iintro ⟨H0, H1, ⟨%em, HM⟩, ⟨%el, HL⟩⟩
      isplitl [HM HL Hg]
      · isplitl [HM HL]
        · isplitl [HM]
          · unfold owns; iexists _; isplitr
            swap; · iexact HM
            ipureintro
            exact (firstM c _ _ _ _ _ _ _ _ _ hc0 hc1 _ em).trans (congrArg Prod.fst (stepSt_fill t d0 _ (iblk m c 0 t) initSt))
          · unfold owns; iexists _; isplitr
            swap; · iexact HL
            ipureintro
            exact (firstL c _ _ _ _ _ _ _ _ _ hc0 hc1 _ el).trans (congrArg Prod.snd (stepSt_fill t d0 _ (iblk m c 0 t) initSt))
        iexact Hg
      isplitl [Ho]; · iexact Ho
      isplitl [H0]; · iexists d0; iexact H0
      iexists d1; iexact H1
  · have hz : t.val ≠ 0 := fun hz => h0 (by rw [hz])
    have hc0 : ¬condFirst (grid0.coords t) := fun h => h0 ((hcondFirst t).mp h)
    rw [PhiS_castSucc m c t, PhiS_pos m c _ _ hz, stAt_next m c t h0]
    by_cases h1 : t.val % 5 = 4
    · have hc1 : condLast (grid0.coords t) := (hcondLast t).mpr h1
      rw [leaves1_last m c t hc1]
      unfold outAt; rw [stAt_next m c t h0]
      iintro ⟨⟨⟨HM, HL⟩, Hg⟩, Ho, ⟨%d0, H0⟩, ⟨%d1, H1⟩⟩
      iapply ((runLast c (grid0.coords t) (ms0 t) (hs0 t) (ms1 t) (hs1 t) scM (Memref.isWhole_whole _) scL (Memref.isWhole_whole _) hc0 hc1 (win0_0.fill (grid0.coords t) d0 (iblk m c 0 t)) _ _).2.2.2 Set.univ _)
      isplitl [H0]; · iexact H0
      isplitl [H1]; · iexists _; iexact H1
      isplitl [HM]; · iexact HM
      isplitl [HL]; · iexact HL
      iintro ⟨H0, ⟨%eo, H1⟩, ⟨%em, HM⟩, ⟨%el, HL⟩⟩
      isplitl [HM HL Hg]
      · isplitl [HM HL]
        · isplitl [HM]
          · unfold owns; iexists _; isplitr
            swap; · iexact HM
            ipureintro
            exact (lastM c _ _ _ _ _ _ _ _ _ hc0 hc1 _ _ _ em).trans (congrArg Prod.fst (stepSt_fill t d0 _ (iblk m c 0 t) _))
          · unfold owns; iexists _; isplitr
            swap; · iexact HL
            ipureintro
            exact (lastL c _ _ _ _ _ _ _ _ _ hc0 hc1 _ _ _ el).trans (congrArg Prod.snd (stepSt_fill t d0 _ (iblk m c 0 t) _))
        iexact Hg
      isplitl [Ho]; · iexact Ho
      isplitl [H0]; · iexists d0; iexact H0
      unfold owns; iexists _; isplitr
      swap; · iexact H1
      ipureintro
      refine (lastO c _ _ _ _ _ _ _ _ _ hc0 hc1 _ _ _ eo).trans ?_
      have e := stepSt_fill t d0 (fun _ => Scalar.ofBits .f32 0#32) (iblk m c 0 t) (stAt m c (t.val - 1) (Nat.lt_of_le_of_lt (Nat.sub_le _ _) t.isLt))
      exact congrArg (fun p : Vec F S512x1 .f32 × Vec F S512x1 .f32 => k0_pay1 p.1 p.2) e
    · have hc1 : ¬condLast (grid0.coords t) := fun h => h1 ((hcondLast t).mp h)
      rw [leaves1_idle m c t hc1]
      iintro ⟨⟨⟨HM, HL⟩, Hg⟩, Ho, ⟨%d0, H0⟩, ⟨%d1, H1⟩⟩
      iapply ((runMid c (grid0.coords t) (ms0 t) (hs0 t) (ms1 t) (hs1 t) scM (Memref.isWhole_whole _) scL (Memref.isWhole_whole _) hc0 hc1 (win0_0.fill (grid0.coords t) d0 (iblk m c 0 t)) _ _).2.2 _ Set.univ _)
      isplitl [H0]; · iexact H0
      isplitl [H1]; · iexact H1
      isplitl [HM]; · iexact HM
      isplitl [HL]; · iexact HL
      iintro ⟨H0, H1, ⟨%em, HM⟩, ⟨%el, HL⟩⟩
      isplitl [HM HL Hg]
      · isplitl [HM HL]
        · isplitl [HM]
          · unfold owns; iexists _; isplitr
            swap; · iexact HM
            ipureintro
            exact (midM c _ _ _ _ _ _ _ _ _ hc0 hc1 _ _ _ em).trans (congrArg Prod.fst (stepSt_fill t d0 _ (iblk m c 0 t) _))
          · unfold owns; iexists _; isplitr
            swap; · iexact HL
            ipureintro
            exact (midL c _ _ _ _ _ _ _ _ _ hc0 hc1 _ _ _ el).trans (congrArg Prod.snd (stepSt_fill t d0 _ (iblk m c 0 t) _))
        iexact Hg
      isplitl [Ho]; · iexact Ho
      isplitl [H0]; · iexists d0; iexact H0
      iexists d1; iexact H1

/-- The body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch columns' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 160 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HM, HL⟩, Hg⟩
  isplitl [HM HL]
  · isplitl [HM]
    · iexists _; iexact HM
    · iexists _; iexact HL
  iexact Hg

/-! ## The run and the frame -/

set_option backward.isDefEq.respectTransparency.types false in
/-- Every weakly fair execution of @main terminates, and every final state has each array of the pipeline at what the
    proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main terminates, faults nowhere, and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.RowMath.lean ====
/-
  One row of a streamed log-sum-exp, in the extended reals.

  A row of 10000 real entries is read in five tiles of 2048 columns. Going in to tile `j` the row's state is a real
  `a` (a running maximum, or any real: nothing below uses that it is the maximum) and the sum of `exp (x - a)` over the
  columns before the tile. The tile's entries whose column is not below 10000 are first replaced by a real floor value;
  the new state is `a' = max a (the largest masked entry)` and `exp (a - a') · (old sum) + (the sum of exp (x - a') over
  the tile's columns below 10000)`. Three facts make the step exact: a maximum of finitely many reals is a real;
  `exp (a - a') · exp (x - a) = exp (x - a')` for all reals; and the columns below 10000 of tile `j` are those from
  `2048 j` up to `min (2048 (j + 1)) 10000`. After the last tile the state is `a` and `∑ exp (x - a)` over all 10000
  columns, and `a + log` of that sum is `log ∑ exp x`.
-/
import Idealize.ShloMosaic.PureOps.Ideal
import proofs.«109123_j52613349376066_2_alg».proof.Proof.LibERealSum

noncomputable section

namespace Cert.LseRow

open Idealize.ShloMosaic

/-- The embedding of the reals in the extended reals commutes with `max`: it is monotone. -/
theorem coe_max (x y : ℝ) : ((max x y : ℝ) : EReal) = max (x : EReal) (y : EReal) :=
  EReal.coe_strictMono.monotone.map_max

/-- The maximum of a real and of finitely many reals (folded from `⊥`) is a real. -/
theorem max_fold_coe {ι : Type} (s : Finset ι) (f : ι → ℝ) (a : ℝ) :
    ∃ b : ℝ, max (a : EReal) (s.fold max ⊥ (fun k => (f k : EReal))) = (b : EReal) := by
  classical
  induction s using Finset.induction_on with
  | empty => exact ⟨a, by rw [Finset.fold_empty]; exact max_eq_left bot_le⟩
  | insert i s hi ih =>
    obtain ⟨b, hb⟩ := ih
    refine ⟨max (f i) b, ?_⟩
    rw [Finset.fold_insert hi, max_left_comm, hb, coe_max]

/-- The columns from `0` up to `min (o + w) C` are those below `o` and, of the `w` columns from `o` on, those below
    `C` (for `o ≤ C`). -/
theorem sum_range_tile (g : ℕ → ℝ) (o C : ℕ) (ho : o ≤ C) (w : ℕ) :
    ∑ k' ∈ Finset.range (min (o + w) C), g k'
      = ∑ k' ∈ Finset.range o, g k' + ∑ k ∈ Finset.range w, (if o + k < C then g (o + k) else 0) := by
  induction w with
  | zero => rw [Nat.add_zero, Nat.min_eq_left ho, Finset.sum_range_zero, add_zero]
  | succ w ih =>
    rw [Finset.sum_range_succ, ← add_assoc (∑ k' ∈ Finset.range o, g k'), ← ih]
    by_cases h : o + w < C
    · rw [if_pos h, Nat.min_eq_left (show o + (w + 1) ≤ C by omega), Nat.min_eq_left (show o + w ≤ C by omega),
        ← Nat.add_assoc, Finset.sum_range_succ]
    · rw [if_neg h, add_zero, Nat.min_eq_right (show C ≤ o + (w + 1) by omega),
        Nat.min_eq_right (show C ≤ o + w by omega)]

/-- ONE TILE. `xs` are the row's entries by column, `j` the tile, `x` the tile as read (only its columns below 10000
    are the row's), `xm` the masked tile, `M'` and `L'` the new maximum and the new sum as the extended reals'
    operations compute them from a state `mc = a`, `lc = ∑_{k' < 2048 j} exp (xs k' - a)`. Then the new state is of the
    same form over the columns up to the tile's end. -/
theorem row_step (xs : ℕ → ℝ) (NEGr : ℝ) (j : ℕ) (hj : j < 5) (a : ℝ)
    (x : Fin 2048 → EReal)
    (hx : ∀ k : Fin 2048, j * 2048 + k.val < 10000 → x k = ((xs (j * 2048 + k.val) : ℝ) : EReal))
    (mc lc : EReal) (hm : mc = (a : EReal))
    (hl : lc = ((∑ k' ∈ Finset.range (j * 2048), Real.exp (xs k' - a) : ℝ) : EReal))
    (xm : Fin 2048 → EReal)
    (hxm : ∀ k : Fin 2048, xm k = if j * 2048 + k.val < 10000 then x k else (NEGr : EReal))
    (M' : EReal) (hM : M' = max mc ((Finset.univ : Finset (Fin 2048)).fold max ⊥ xm))
    (L' : EReal)
    (hL : L' = Ideal.exp (mc - M') * lc
      + ∑ k : Fin 2048, (if j * 2048 + k.val < 10000 then Ideal.exp (xm k - M') else 0)) :
    ∃ a' : ℝ, M' = (a' : EReal) ∧
      L' = ((∑ k' ∈ Finset.range (min ((j + 1) * 2048) 10000), Real.exp (xs k' - a') : ℝ) : EReal) := by
  -- the masked tile is real everywhere
  have hxr : ∀ k : Fin 2048,
      xm k = (((if j * 2048 + k.val < 10000 then xs (j * 2048 + k.val) else NEGr) : ℝ) : EReal) := by
    intro k
    rw [hxm k]
    by_cases h : j * 2048 + k.val < 10000
    · rw [if_pos h, if_pos h, hx k h]
    · rw [if_neg h, if_neg h]
  obtain ⟨a', ha'⟩ := max_fold_coe (Finset.univ : Finset (Fin 2048))
    (fun k => if j * 2048 + k.val < 10000 then xs (j * 2048 + k.val) else NEGr) a
  have hM' : M' = (a' : EReal) := by
    rw [hM, hm, show xm = fun k => (((if j * 2048 + k.val < 10000 then xs (j * 2048 + k.val) else NEGr) : ℝ) : EReal)
      from funext hxr]
    exact ha'
  refine ⟨a', hM', ?_⟩
  have h1 : Ideal.exp ((a : EReal) - (a' : EReal)) = ((Real.exp (a - a') : ℝ) : EReal) := by
    rw [← EReal.coe_sub]; rfl
  have h2 : ∀ k : Fin 2048,
      (if j * 2048 + k.val < 10000 then Ideal.exp (xm k - (a' : EReal)) else 0)
        = (((if j * 2048 + k.val < 10000 then Real.exp (xs (j * 2048 + k.val) - a') else 0) : ℝ) : EReal) := by
    intro k
    by_cases h : j * 2048 + k.val < 10000
    · rw [if_pos h, if_pos h, hxr k, if_pos h, ← EReal.coe_sub]; rfl
    · rw [if_neg h, if_neg h]; rfl
  rw [hL, hM', hm, hl, h1, Finset.sum_congr rfl (fun k _ => h2 k), ← LibERealSum.coe_sum, ← EReal.coe_mul,
    ← EReal.coe_add]
  refine congrArg Real.toEReal ?_
  rw [show (j + 1) * 2048 = j * 2048 + 2048 by ring,
    sum_range_tile (fun k' => Real.exp (xs k' - a')) (j * 2048) 10000 (by omega) 2048, Finset.mul_sum]
  refine congrArg₂ (· + ·) (Finset.sum_congr rfl fun k' _ => ?_)
    (Fin.sum_univ_eq_sum_range (fun k => if j * 2048 + k < 10000 then Real.exp (xs (j * 2048 + k) - a') else 0) 2048)
  rw [← Real.exp_add]
  exact congrArg Real.exp (by ring)

/-- THE END OF THE ROW. With the state `a`, `∑ exp (x - a)` over all 10000 columns, `a + log (the sum)` is the
    logarithm of `∑ exp x`: the sum is positive, `exp a` times it is `∑ exp x`, and `log (exp a · S) = a + log S`. -/
theorem row_final (xs : ℕ → ℝ) (a : ℝ) :
    (a : EReal) + Ideal.log ((∑ k' ∈ Finset.range 10000, Real.exp (xs k' - a) : ℝ) : EReal)
      = ((Real.log (∑ k : Fin 10000, Real.exp (xs k.val)) : ℝ) : EReal) := by
  have hpos : 0 < ∑ k' ∈ Finset.range 10000, Real.exp (xs k' - a) :=
    Finset.sum_pos (fun k' _ => Real.exp_pos _) ⟨0, Finset.mem_range.2 (by omega)⟩
  have hsum : ∑ k' ∈ Finset.range 10000, Real.exp (xs k')
      = Real.exp a * ∑ k' ∈ Finset.range 10000, Real.exp (xs k' - a) := by
    rw [Finset.mul_sum]
    refine Finset.sum_congr rfl fun k' _ => ?_
    rw [← Real.exp_add]
    exact congrArg Real.exp (by ring)
  rw [Ideal.log_coe, if_neg (not_le.2 hpos), ← EReal.coe_add]
  refine congrArg Real.toEReal ?_
  rw [Fin.sum_univ_eq_sum_range (fun k => Real.exp (xs k)) 10000, hsum,
    Real.log_mul (Real.exp_pos a).ne' hpos.ne', Real.log_exp]

end Cert.LseRow

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.RowPay.lean ====
/-
  The body's arithmetic read one row at a time, at the extended reals.

  The body works on a 512 × 2048 tile and on two 512 × 1 columns (a running maximum and a running sum per row). Every
  value it stores is read here at one row `p`: the columns a row block starts from are a finite floor value and `0`;
  the masked tile at `(p, k)` is the tile's entry where the column `2048 j + k` is below 10000 and the floor value
  elsewhere; the new maximum at row `p` is the larger of the old one and the largest masked entry of the row (a row
  maximum from `-∞`, kept as a column); the new sum is `exp (old max - new max) · old sum` plus the row's sum of
  `exp (masked entry - new max)` over the columns below 10000 (a row sum, kept as a column, of a tile whose other
  columns are `0`); and the last tile stores `max + log sum`, the column read as a vector.
-/
import proofs.«109123_j52613349376066_2_alg».proof.Proof.Gen.KernelIdeal.Skeleton
import proofs.«109123_j52613349376066_2_alg».proof.Proof.IBodyMask
import proofs.«109123_j52613349376066_2_alg».proof.Proof.LibKeepdims
import proofs.«109123_j52613349376066_2_alg».proof.Proof.LibPlain
import proofs.«109123_j52613349376066_2_alg».proof.Proof.LibColumns
import Idealize.ShloMosaic.Lib.Pipeline.Value
import Idealize.ShloMosaic.Lib.ValueIdx
import Idealize.ShloMosaic.PureOps.Ideal.Laws

noncomputable section

namespace Cert.LseRow

open Cert.KernelIdeal Cert.KernelIdeal.Gen
open Idealize.ShloMosaic Idealize.ShloMosaic.ValueIdx

/-- The floor value as a real number: the f32 word `0xFF333332` has sign 1, exponent field 254 and fraction field
    `0x333332 = 3355442`, so it denotes `-(2^23 + 3355442) · 2^(254 - 127 - 23) = -11744050 · 2^104`. -/
def NEGr : ℝ := -(11744050 * 2 ^ 104)

/-- The floor value's word denotes that real. -/
theorem ofBits_NEG : Ideal.ofBits .f32 0xFF333332#32 = ((NEGr : ℝ) : EReal) := by
  simp [Ideal.ofBits, Ideal.ieee, NEGr]

/-- The zero word denotes `0`. -/
theorem ofBits_zero_f32 : Ideal.ofBits .f32 0x00000000#32 = 0 := by
  simp [Ideal.ofBits, Ideal.ieee]

/-- A select on a decided condition is the `if`. -/
theorem select_decide {α : Type} (c : Prop) [Decidable c] (A B : α) :
    Scalar.select (BitVec.ofBool (decide c)) A B = if c then A else B := by
  by_cases h : c
  · rw [if_pos h, decide_eq_true h]; exact select_one A B
  · rw [if_neg h, decide_eq_false h]; exact select_zero A B

/-- The maximum column a row block starts from holds the floor value, -/
theorem pay2_apply (p : Fin 512) :
    k0_pay2 (F := Ideal) (ix2 p (0 : Fin 1)) = Ideal.ofBits .f32 0xFF333332#32 := by
  unfold k0_pay2
  rw [shapeCast_self]
  rfl

/-- which is a real; -/
theorem pay2_apply_real (p : Fin 512) : k0_pay2 (F := Ideal) (ix2 p (0 : Fin 1)) = ((NEGr : ℝ) : EReal) :=
  (pay2_apply p).trans ofBits_NEG

/-- the sum column it starts from holds `0`. -/
theorem pay3_apply (p : Fin 512) : k0_pay3 (F := Ideal) (ix2 p (0 : Fin 1)) = 0 := by
  unfold k0_pay3
  rw [shapeCast_self]
  exact ofBits_zero_f32

/-- The masked tile at `(p, k)`: the tile's entry where the column is inside the array, the floor value elsewhere. -/
theorem pay5_apply (t : Fin cfg0.N) (x : Vec Ideal S512x2048 .f32) (p : Fin 512) (k : Fin 2048) :
    k0_pay5 (grid0.coords t) x (ix2 p k)
      = if t.val % 5 * 2048 + k.val < 10000 then x (ix2 p k) else Ideal.ofBits .f32 0xFF333332#32 := by
  unfold k0_pay5
  rw [select_apply, Hand.mask_apply]
  exact select_decide _ _ _

/-- The new maximum, before the identity cast of the store, at row `p`: the larger of the old maximum and the row
    maximum of the masked tile. -/
theorem pay6_apply (i : grid0.Coords) (x : Vec Ideal S512x2048 .f32) (mc : Vec Ideal S512x1 .f32) (p : Fin 512) :
    k0_pay6 i x mc (ix2 p (0 : Fin 1))
      = max (mc (ix2 p 0)) ((Finset.univ : Finset (Fin 2048)).fold max ⊥ fun k => k0_pay5 i x (ix2 p k)) := by
  unfold k0_pay6
  refine congrArg (max (mc (ix2 p (0 : Fin 1)))) ?_
  refine (LibKeepdims.shapeCast_a_a1_apply _ _ p 0).trans ?_
  exact LibPlain.rowMax_apply (k0_pay5 i x) _ _ _ p

/-- The stored maximum column is that column (a cast of a shape to itself). -/
theorem pay8_eq_pay6 (i : grid0.Coords) (x : Vec Ideal S512x2048 .f32) (mc : Vec Ideal S512x1 .f32) :
    k0_pay8 i x mc = k0_pay6 i x mc := by
  unfold k0_pay8
  exact shapeCast_self _ _

/-- The new maximum at row `p`. -/
theorem pay8_apply (i : grid0.Coords) (x : Vec Ideal S512x2048 .f32) (mc : Vec Ideal S512x1 .f32) (p : Fin 512) :
    k0_pay8 i x mc (ix2 p (0 : Fin 1))
      = max (mc (ix2 p 0)) ((Finset.univ : Finset (Fin 2048)).fold max ⊥ fun k => k0_pay5 i x (ix2 p k)) := by
  rw [pay8_eq_pay6]
  exact pay6_apply i x mc p

/-- The new sum at row `p`: `exp (old max - new max) · old sum`, plus the sum over the row of the tile that holds
    `exp (masked entry - new max)` at the columns inside the array and `0` at the others. -/
theorem pay7_apply (t : Fin cfg0.N) (x : Vec Ideal S512x2048 .f32) (mc lc : Vec Ideal S512x1 .f32) (p : Fin 512) :
    k0_pay7 (grid0.coords t) x mc lc (ix2 p (0 : Fin 1))
      = Ideal.exp (mc (ix2 p 0) - k0_pay8 (grid0.coords t) x mc (ix2 p 0)) * lc (ix2 p 0)
        + ∑ k : Fin 2048, (if t.val % 5 * 2048 + k.val < 10000
            then Ideal.exp (k0_pay5 (grid0.coords t) x (ix2 p k) - k0_pay8 (grid0.coords t) x mc (ix2 p 0))
            else 0) := by
  rw [pay8_eq_pay6]
  unfold k0_pay7
  rw [shapeCast_self]
  refine congrArg (Ideal.exp (mc (ix2 p (0 : Fin 1)) - k0_pay6 (grid0.coords t) x mc (ix2 p 0)) * lc (ix2 p 0) + ·) ?_
  refine (LibKeepdims.shapeCast_a_a1_apply _ _ p 0).trans ?_
  refine (LibColumns.rowSum_apply _ _ _ _ p).trans ?_
  refine Finset.sum_congr rfl fun k _ => ?_
  rw [select_apply, Hand.mask_apply, select_decide]
  by_cases h : t.val % 5 * 2048 + k.val < 10000
  · rw [if_pos h, if_pos h]
    show Ideal.exp (k0_pay5 (grid0.coords t) x (ix2 p k)
      - broadcastTo S512x2048 (k0_pay6 (grid0.coords t) x mc) broadcasts_S512x1_S512x2048 (ix2 p k)) = _
    rw [LibKeepdims.broadcastTo_a1_ab_apply]
  · rw [if_neg h, if_neg h]
    exact ofBits_zero_f32

/-- What the last tile stores, at row `p`: the maximum plus the logarithm of the sum. -/
theorem pay1_apply (M L : Vec Ideal S512x1 .f32) (p : Fin 512) :
    k0_pay1 M L (ix1 p) = M (ix2 p (0 : Fin 1)) + Ideal.log (L (ix2 p (0 : Fin 1))) := by
  unfold k0_pay1
  refine (shapeCast_apply _ _ (ix1 p) (ix2 p (0 : Fin 1)) (by
    rw [Shape.rowMajor_val_two, Shape.rowMajor_val_one]
    show p.val * 1 + 0 = p.val
    omega)).trans ?_
  rfl

end Cert.LseRow

end
-- ==== Proof.RowStep.lean ====
/-
  One row of the body's state across a tile, and at the end of the row.

  The body's arithmetic read at a row (the new maximum, the new sum, the stored result) combined with the mathematics
  of a streamed log-sum-exp: if going in to tile `j` the row's maximum column holds a real `a` and its sum column holds
  `∑ exp (x - a)` over the columns before the tile, then coming out the maximum column holds a real `a'` and the sum
  column `∑ exp (x - a')` over the columns up to the tile's end (or the array's, for the last tile); the columns a row
  block starts from are such a state with no column summed yet; and from such a state over all 10000 columns the
  stored result is `log ∑ exp x`.
-/
import proofs.«109123_j52613349376066_2_alg».proof.Proof.RowMath
import proofs.«109123_j52613349376066_2_alg».proof.Proof.RowPay

noncomputable section

namespace Cert.LseRow

open Cert.KernelIdeal Cert.KernelIdeal.Gen
open Idealize.ShloMosaic Idealize.ShloMosaic.ValueIdx

/-- ONE TILE, at row `p` of point `t` (column tile `t % 5`): `xs` are the row's entries by column; the tile as loaded
    holds them at its columns inside the array (what it holds elsewhere does not matter). -/
theorem step_row (t : Fin cfg0.N) (p : Fin 512) (xs : ℕ → ℝ) (a : ℝ)
    (x : Vec Ideal S512x2048 .f32) (mc lc : Vec Ideal S512x1 .f32)
    (hx : ∀ k : Fin 2048, t.val % 5 * 2048 + k.val < 10000 →
      x (ix2 p k) = ((xs (t.val % 5 * 2048 + k.val) : ℝ) : EReal))
    (hm : mc (ix2 p (0 : Fin 1)) = (a : EReal))
    (hl : lc (ix2 p (0 : Fin 1))
      = ((∑ k' ∈ Finset.range (t.val % 5 * 2048), Real.exp (xs k' - a) : ℝ) : EReal)) :
    ∃ a' : ℝ, k0_pay8 (grid0.coords t) x mc (ix2 p (0 : Fin 1)) = (a' : EReal) ∧
      k0_pay7 (grid0.coords t) x mc lc (ix2 p (0 : Fin 1))
        = ((∑ k' ∈ Finset.range (min ((t.val % 5 + 1) * 2048) 10000), Real.exp (xs k' - a') : ℝ) : EReal) :=
  row_step xs NEGr (t.val % 5) (Nat.mod_lt _ (by decide)) a (fun k => x (ix2 p k)) hx _ _ hm hl
    (fun k => k0_pay5 (grid0.coords t) x (ix2 p k))
    (fun k => (pay5_apply t x p k).trans (by rw [ofBits_NEG]))
    _ (pay8_apply (grid0.coords t) x mc p) _ (pay7_apply t x mc lc p)

/-- THE START OF A ROW BLOCK: the two columns a row block starts from are the state `a = ` the floor value, with no
    column summed yet (`j = 0`: the sum over the columns before tile `0` is empty). -/
theorem init_row (p : Fin 512) (xs : ℕ → ℝ) (j : ℕ) (hj : j = 0) :
    k0_pay2 (F := Ideal) (ix2 p (0 : Fin 1)) = ((NEGr : ℝ) : EReal) ∧
      k0_pay3 (F := Ideal) (ix2 p (0 : Fin 1))
        = ((∑ k' ∈ Finset.range (j * 2048), Real.exp (xs k' - NEGr) : ℝ) : EReal) := by
  subst hj
  refine ⟨pay2_apply_real p, (pay3_apply p).trans ?_⟩
  rw [Nat.zero_mul, Finset.sum_range_zero]
  rfl

/-- The first tile of a row block, from the columns it starts from. -/
theorem step_row_first (t : Fin cfg0.N) (h0 : t.val % 5 = 0) (p : Fin 512) (xs : ℕ → ℝ)
    (x : Vec Ideal S512x2048 .f32)
    (hx : ∀ k : Fin 2048, t.val % 5 * 2048 + k.val < 10000 →
      x (ix2 p k) = ((xs (t.val % 5 * 2048 + k.val) : ℝ) : EReal)) :
    ∃ a' : ℝ, k0_pay8 (grid0.coords t) x (k0_pay2 (F := Ideal)) (ix2 p (0 : Fin 1)) = (a' : EReal) ∧
      k0_pay7 (grid0.coords t) x (k0_pay2 (F := Ideal)) (k0_pay3 (F := Ideal)) (ix2 p (0 : Fin 1))
        = ((∑ k' ∈ Finset.range (min ((t.val % 5 + 1) * 2048) 10000), Real.exp (xs k' - a') : ℝ) : EReal) :=
  step_row t p xs NEGr x _ _ hx (init_row p xs _ h0).1 (init_row p xs _ h0).2

/-- THE END OF THE ROW: from the state over all 10000 columns the stored result at row `p` is `log ∑ exp x`. -/
theorem final_row (M L : Vec Ideal S512x1 .f32) (p : Fin 512) (xs : ℕ → ℝ) (a : ℝ)
    (hm : M (ix2 p (0 : Fin 1)) = (a : EReal))
    (hl : L (ix2 p (0 : Fin 1)) = ((∑ k' ∈ Finset.range 10000, Real.exp (xs k' - a) : ℝ) : EReal)) :
    k0_pay1 M L (ix1 p) = ((Real.log (∑ k : Fin 10000, Real.exp (xs k.val)) : ℝ) : EReal) := by
  rw [pay1_apply, hm, hl]
  exact row_final xs a

end Cert.LseRow

end
-- ==== Proof.BlocksArray.lean ====
/-
  From blocks to arrays: the input tile at a position, and the result array from the row blocks stored.

  The grid is 32 row blocks by 5 column tiles; point `t` is row block `t / 5`, column tile `t % 5`. A block's
  coordinate in its array is always (block index) × (block size) + the coordinate inside the block, and the two windows'
  block indices are decided once over the grid's 160 points: the input window's are (`t / 5`, `t % 5`), the result
  window's is `t / 5`.
  * The input tile at position (p, k) inside the array — column `2048·(t % 5) + k` below 10000 — is the logits array at
    row `512·(t / 5) + p` and that column: the position is one the fetch fills (the tile has all its rows and, except the
    last tile, all its columns inside the array), and what the fetch puts there is the array's element under it.
  * The result array ends as `G` whenever each last column tile stores rows `512·(t / 5) …` of `G`: those are the points
    that write the result window back, the window is not cut (its block is what was stored), and row `i` of the array
    lies in the block of point `5·(i / 512) + 4`, so the blocks written back cover the array.
-/
import proofs.«109123_j52613349376066_2_alg».proof.Proof.IBodyDat
import Idealize.ShloMosaic.Lib.Pipeline.Value
import Idealize.ShloMosaic.Lib.ValueIdx

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable {F : FTy → Type} [FloatOps F]

variable (m : (ℓ : Loc nD τ sig) → Buf (Elt F) ℓ)

/-- The input window's row-block index at point `t`, decided over the grid. -/
theorem index_rows : ∀ t : Fin cfg0.N, win0_0.index t 0 = t.val / 5 :=
  (by decide +kernel : ∀ t : Fin grid0.N, win0_0.index t 0 = t.val / 5)
/-- Its column-tile index. -/
theorem index_cols : ∀ t : Fin cfg0.N, win0_0.index t 1 = t.val % 5 :=
  (by decide +kernel : ∀ t : Fin grid0.N, win0_0.index t 1 = t.val % 5)
/-- The result window's row-block index. -/
theorem index_out : ∀ t : Fin cfg0.N, win0_1.index t 0 = t.val / 5 :=
  (by decide +kernel : ∀ t : Fin grid0.N, win0_1.index t 0 = t.val / 5)

/-- THE TILE AT A POSITION INSIDE THE ARRAY is the logits array at (512·(t / 5) + p, 2048·(t % 5) + k). -/
theorem tile_apply (c : Dev nD) (t : Fin cfg0.N) (p : Fin 512) (k : Fin 2048) (hk : t.val % 5 * 2048 + k.val < 10000)
    (hr : t.val / 5 * 512 + p.val < 16384) :
    tile m c t (ix2 p k) = m ((c : Thread nD τ).loc main_arg0) (ix2 ⟨t.val / 5 * 512 + p.val, hr⟩ ⟨t.val % 5 * 2048 + k.val, hk⟩) := by
  have hm : win0_0.moved (grid0.coords t) (ix2 p k) = true := by
    rw [win0_0.moved_iff]
    intro a
    match a with
    | ⟨0, _⟩ => exact lt_of_lt_of_eq p.isLt (xsize_rows t).symm
    | ⟨1, _⟩ =>
      show k.val < win0_0.xsize (grid0.coords t) 1
      rw [xsize_cols]; split <;> omega
  unfold tile Pipeline.Window.fill
  rw [dif_pos hm]
  unfold iblk
  rw [View.read_apply]
  show V m c main_arg0 (((cfg0.win 0).blk t).view.emb fun a => ⟨(ix2 p k a).val, _⟩) = _
  rw [V_main_arg0]
  refine congrArg _ (funext fun a => Fin.ext ?_)
  match a with
  | ⟨0, _⟩ =>
    show win0_0.index t 0 * 512 + 1 * p.val = t.val / 5 * 512 + p.val
    rw [index_rows]; omega
  | ⟨1, _⟩ =>
    show win0_0.index t 1 * 2048 + 1 * k.val = t.val % 5 * 2048 + k.val
    rw [index_cols]; omega

/-- An index of the result array is in point `t`'s block iff its row is among the block's 512 rows. -/
theorem mem_blk1 (t : Fin cfg0.N) (i : S16384.Idx) :
    i ∈ ((cfg0.win 1).blk t).view.set ↔ ∀ a : Fin 1, win0_1.index t a * S512.size a ≤ (i a).val ∧ (i a).val < win0_1.index t a * S512.size a + S512.size a := by
  show i ∈ ((View.whole main_v0).slice (win0_1.rect t)).set ↔ _
  rw [View.set_slice_whole, Rect.mem_set_unit]
  exact Iff.rfl

/-- WHAT A LAST COLUMN TILE WRITES BACK is its row block of `G`, when it stores that block's rows of `G`. -/
theorem flushed1_eq (c : Dev nD) (G : (⟨S16384, .f32⟩ : BufTy).Contents (Elt F))
    (hG : ∀ (t : Fin cfg0.N) (p : Fin 512) (hr : t.val / 5 * 512 + p.val < 16384), t.val % 5 = 4 →
      outAt m c t (ix1 p) = G (ix1 ⟨t.val / 5 * 512 + p.val, hr⟩))
    (t : Fin cfg0.N) (hf : (cfg0.win 1).flush t = true) :
    (dats m 0 c).flushed 1 t = ((cfg0.win 1).blk t).view.read (Elt F) G := by
  show (cfg0.win 1).cut (grid0.coords t) ((dats m 0 c).after 1 t) = _
  rw [after1]
  funext j
  rw [View.read_apply]
  have h4 : t.val % 5 = 4 := (flush0_1 t).mp hf
  have hN : t.val < 160 := lt_of_lt_of_eq t.isLt N_0
  have hj : (j 0).val < 512 := (j 0).isLt
  have hr : t.val / 5 * 512 + (j 0).val < 16384 := by omega
  show outAt m c t ((cfg0.win 1).xinj (grid0.coords t) j) = G (((cfg0.win 1).blk t).view.emb j)
  have e : (cfg0.win 1).xinj (grid0.coords t) j = ix1 (⟨(j 0).val, hj⟩ : Fin 512) :=
    funext fun a => by match a with | ⟨0, _⟩ => rfl
  rw [e, hG t ⟨(j 0).val, hj⟩ hr h4]
  refine congrArg G (funext fun a => Fin.ext ?_)
  match a with
  | ⟨0, _⟩ =>
    show t.val / 5 * 512 + (j 0).val = win0_1.index t 0 * 512 + 1 * (j 0).val
    rw [index_out]; omega

/-- THE RESULT ARRAY after the region: `G`, when every last column tile stores block `t / 5` of `G`. -/
theorem arrAt_of_rows (c : Dev nD) (G : (⟨S16384, .f32⟩ : BufTy).Contents (Elt F))
    (hG : ∀ (t : Fin cfg0.N) (p : Fin 512) (hr : t.val / 5 * 512 + p.val < 16384), t.val % 5 = 4 →
      outAt m c t (ix1 p) = G (ix1 ⟨t.val / 5 * 512 + p.val, hr⟩)) :
    (dats m 0 c).arrAt 1 cfg0.N = G := by
  refine (dats m 0 c).arrAt_eq_of_cover 1 G (fun t hf => flushed1_eq m c G hG t hf) (fun (i : S16384.Idx) => ?_)
  have hi : (i 0).val < 16384 := (i 0).isLt
  have hN : cfg0.N = 160 := N_0
  refine ⟨⟨5 * ((i 0).val / 512) + 4, by omega⟩, (flush0_1 _).mpr (by show (5 * ((i 0).val / 512) + 4) % 5 = 4; omega), ?_⟩
  rw [mem_blk1]
  intro a
  match a with
  | ⟨0, _⟩ =>
    show win0_1.index ⟨5 * ((i 0).val / 512) + 4, _⟩ 0 * 512 ≤ (i 0).val
      ∧ (i 0).val < win0_1.index ⟨5 * ((i 0).val / 512) + 4, _⟩ 0 * 512 + 512
    rw [index_out]
    show (5 * ((i 0).val / 512) + 4) / 5 * 512 ≤ (i 0).val ∧ (i 0).val < (5 * ((i 0).val / 512) + 4) / 5 * 512 + 512
    omega

end Cert.KernelIdeal.Hand
end
-- ==== Proof.IKernelValue.lean ====
/-
  What the region leaves in the result array, at the extended reals: row `r` ends at `log Σ_j exp x[r, j]`.

  Fix a row `r` of row block `b`, at position `p` inside the block, and write its entries `x_k` (real numbers, the inputs
  being finite). After the point of column tile `j` the running maximum of the row is some real `a` and the running sum is
  `Σ_{k < min(2048 (j+1), 10000)} exp(x_k − a)`: at the first tile by the fold of the tile into (floor value, 0), afterwards by
  the fold into what the tile before left — which real the running maximum is never matters, since rescaling by
  `exp(a − a')` moves the sum from one to the other. After the last tile the sum runs over the whole row, and the stored value
  `a + log Σ_k exp(x_k − a)` is `log Σ_k exp x_k`. The result window's blocks are the 32 row blocks, each written back after its
  last tile, and together they are the array.
-/
import proofs.«109123_j52613349376066_2_alg».proof.Proof.IBodyDat
import proofs.«109123_j52613349376066_2_alg».proof.Proof.RowStep
import proofs.«109123_j52613349376066_2_alg».proof.Proof.BlocksArray
import Idealize.ShloMosaic.Lib.ValueIdx

-- membership in a rectangle of these extents is decided structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ)

/-! ## A row of the matrix as real numbers -/

/-- Row `r` of the first argument by column, as real numbers (`0` past the last column, which nothing reads). -/
def rowR (c : Dev nD) (r : Fin 16384) : ℕ → ℝ := fun k =>
  if h : k < 10000 then (m ((c : Thread nD τ).loc main_arg0) (ix2 r ⟨k, h⟩)).toReal else 0

/-- A finite entry is its real number. -/
theorem rowR_spec (c : Dev nD) (hfin : ∀ i, ∃ v : ℝ, m ((c : Thread nD τ).loc main_arg0) i = (v : EReal)) (r : Fin 16384) (k : ℕ) (h : k < 10000) :
    m ((c : Thread nD τ).loc main_arg0) (ix2 r ⟨k, h⟩) = ((rowR m c r k : ℝ) : EReal) := by
  obtain ⟨v, hv⟩ := hfin (ix2 r ⟨k, h⟩)
  unfold rowR; rw [dif_pos h, hv, EReal.toReal_coe]

/-- Position `p` of row block `n / 5` is a row of the matrix. -/
theorem rows_lt (n : ℕ) (hn : n < cfg0.N) (p : Fin 512) : n / 5 * 512 + p.val < 16384 := by
  have h160 : cfg0.N = 160 := N_0
  have := p.isLt
  omega

/-- The tile of point `t`, at a position whose column is inside the array, is the row's entry at that column. -/
theorem tile_row (c : Dev nD) (hfin : ∀ i, ∃ v : ℝ, m ((c : Thread nD τ).loc main_arg0) i = (v : EReal)) (t : Fin cfg0.N) (p : Fin 512)
    (r : Fin 16384) (hr : r.val = t.val / 5 * 512 + p.val) (k : Fin 2048) (hk : t.val % 5 * 2048 + k.val < 10000) :
    tile (F := Ideal) m c t (ix2 p k) = ((rowR m c r (t.val % 5 * 2048 + k.val) : ℝ) : EReal) := by
  have hlt : t.val / 5 * 512 + p.val < 16384 := rows_lt t.val t.isLt p
  obtain rfl : r = ⟨t.val / 5 * 512 + p.val, hlt⟩ := Fin.ext hr
  rw [tile_apply m c t p k hk hlt]
  exact rowR_spec m c hfin _ _ hk

/-! ## The running state, row by row -/

/-- After the point of column tile `n % 5` the row's running maximum is a real `a` and its running sum is the sum of
    `exp(x_k − a)` over the columns seen so far. -/
theorem st_inv (c : Dev nD) (hfin : ∀ i, ∃ v : ℝ, m ((c : Thread nD τ).loc main_arg0) i = (v : EReal)) :
    ∀ (n : ℕ) (hn : n < cfg0.N) (p : Fin 512) (r : Fin 16384), r.val = n / 5 * 512 + p.val →
      ∃ a : ℝ, (stAt (F := Ideal) m c n hn).1 (ix2 p (0 : Fin 1)) = (a : EReal)
        ∧ (stAt (F := Ideal) m c n hn).2 (ix2 p (0 : Fin 1))
            = ((∑ k' ∈ Finset.range (min ((n % 5 + 1) * 2048) 10000), Real.exp (rowR m c r k' - a) : ℝ) : EReal) := by
  intro n
  induction n with
  | zero =>
    intro hn p r hr
    rw [stAt_first m c ⟨0, hn⟩ (Nat.zero_mod 5)]
    exact Cert.LseRow.step_row_first ⟨0, hn⟩ (Nat.zero_mod 5) p (rowR m c r) (tile m c ⟨0, hn⟩)
      (fun k hk => tile_row m c hfin ⟨0, hn⟩ p r hr k hk)
  | succ n ih =>
    intro hn p r hr
    by_cases h0 : (n + 1) % 5 = 0
    · rw [stAt_first m c ⟨n + 1, hn⟩ h0]
      exact Cert.LseRow.step_row_first ⟨n + 1, hn⟩ h0 p (rowR m c r) (tile m c ⟨n + 1, hn⟩)
        (fun k hk => tile_row m c hfin ⟨n + 1, hn⟩ p r hr k hk)
    · rw [stAt_next m c ⟨n + 1, hn⟩ h0]
      have e1 : (n + 1) / 5 = n / 5 := by omega
      obtain ⟨a, ha1, ha2⟩ := ih (Nat.lt_of_succ_lt hn) p r (by rw [hr, e1])
      have e2 : min ((n % 5 + 1) * 2048) 10000 = (n + 1) % 5 * 2048 := by omega
      rw [e2] at ha2
      exact Cert.LseRow.step_row ⟨n + 1, hn⟩ p (rowR m c r) a (tile m c ⟨n + 1, hn⟩) _ _
        (fun k hk => tile_row m c hfin ⟨n + 1, hn⟩ p r hr k hk) ha1 ha2

/-! ## The result array -/

/-- Row `r`'s log-sum-exp, for every row. -/
def lseG (c : Dev nD) : (⟨S16384, .f32⟩ : BufTy).Contents (Elt Ideal) := fun idx =>
  ((Real.log (∑ j : Fin 10000, Real.exp (rowR m c (idx 0) j.val)) : ℝ) : EReal)

/-- What the last tile of a row block stores is the block's rows of `lseG`. -/
theorem outAt_row (c : Dev nD) (hfin : ∀ i, ∃ v : ℝ, m ((c : Thread nD τ).loc main_arg0) i = (v : EReal)) (t : Fin cfg0.N) (p : Fin 512)
    (hr : t.val / 5 * 512 + p.val < 16384) (h4 : t.val % 5 = 4) :
    outAt (F := Ideal) m c t (ix1 p) = lseG m c (ix1 ⟨t.val / 5 * 512 + p.val, hr⟩) := by
  obtain ⟨a, ha1, ha2⟩ := st_inv m c hfin t.val t.isLt p ⟨t.val / 5 * 512 + p.val, hr⟩ rfl
  rw [show min ((t.val % 5 + 1) * 2048) 10000 = 10000 from by omega] at ha2
  unfold outAt
  exact Cert.LseRow.final_row _ _ p (rowR m c ⟨t.val / 5 * 512 + p.val, hr⟩) a ha1 ha2

/-- The result array after the region: row `r` holds the logarithm of the sum of the exponentials of row `r` of the first
    argument, whose entries are real. -/
theorem lse_value (c : Dev nD) (hfin : ∀ i, ∃ v : ℝ, m ((c : Thread nD τ).loc main_arg0) i = (v : EReal)) (r : Fin 16384) :
    (dats (F := Ideal) m 0 c).arrAt 1 cfg0.N (ix1 r)
      = ((Real.log (∑ j : Fin 10000, Real.exp (m ((c : Thread nD τ).loc main_arg0) (ix2 r j)).toReal) : ℝ) : EReal) := by
  rw [arrAt_of_rows m c (lseG m c) (fun t p hr h4 => outAt_row m c hfin t p hr h4)]
  unfold lseG rowR
  simp only [Fin.is_lt, dite_true]

end Cert.KernelIdeal.Hand

end
-- ==== Proof.LibNary6.lean ====
/-
  A host operation with SIX operand buffers, read in a host program's run.

  A straight-line host program's run leaves every buffer at the fold of the operations' results over the launch
  contents, and that fold is computed by rewriting each operation's result at its own buffer. For an operation whose
  operands are a FAMILY of buffers (a concatenation of several arrays) the general rule hands the operation's function
  the family `fun k => F (xs k)`, where the buffer `xs k` is no literal under the binder and no further rule applies to
  it. Nor can the six contents be handed over inside the operation's function: a concatenation takes its pieces as a
  list together with a proof about that very list, and rewriting does not enter an argument that a later argument's
  type depends on. So for a literal family of six buffers the result is restated here as a six-argument application:
  the function that builds the family from six given contents (a selector, read by the operation at the literal
  positions `0 … 5`) applied to the six buffers' contents, which stay ordinary arguments that the rewriting reaches.
  Unfolding the application and reading the selector at the literals are definitional steps, done afterwards.
  The same holds one size down: a concatenation of TWO arrays is an operation with two operand buffers whose function
  takes both into such a list, so the two-operand result is stated as a two-argument application as well.
-/
import Idealize.ShloMosaic.Lib.StableHlo.Run

noncomputable section

namespace Cert.LibNary6

open Idealize.ShloMosaic Idealize.ShloMosaic.StableHlo

/-- The family over `Fin 6` with the six given members (an abbreviation: a comparison of two terms opens it before it
    opens anything it is compared with). -/
abbrev sel6 {α : Fin 6 → Type} (a0 : α 0) (a1 : α 1) (a2 : α 2) (a3 : α 3) (a4 : α 4) (a5 : α 5) : (k : Fin 6) → α k
  | ⟨0, _⟩ => a0
  | ⟨1, _⟩ => a1
  | ⟨2, _⟩ => a2
  | ⟨3, _⟩ => a3
  | ⟨4, _⟩ => a4
  | ⟨5, _⟩ => a5

section
variable {α : Fin 6 → Type} (a0 : α 0) (a1 : α 1) (a2 : α 2) (a3 : α 3) (a4 : α 4) (a5 : α 5)
theorem sel6_0 : sel6 a0 a1 a2 a3 a4 a5 0 = a0 := rfl
theorem sel6_1 : sel6 a0 a1 a2 a3 a4 a5 1 = a1 := rfl
theorem sel6_2 : sel6 a0 a1 a2 a3 a4 a5 2 = a2 := rfl
theorem sel6_3 : sel6 a0 a1 a2 a3 a4 a5 3 = a3 := rfl
theorem sel6_4 : sel6 a0 a1 a2 a3 a4 a5 4 = a4 := rfl
theorem sel6_5 : sel6 a0 a1 a2 a3 a4 a5 5 = a5 := rfl
end

/-- A function of two arguments applied to them: as `app6` below, for an operation with two operand buffers whose function
    is a concatenation of the two. -/
def app2 {A0 A1 B : Type} (g : A0 → A1 → B) (a0 : A0) (a1 : A1) : B := g a0 a1

/-- A function of six arguments applied to them: the arguments stay in sight of a rewriting pass that the function's body
    may hide them from. -/
def app6 {A0 A1 A2 A3 A4 A5 B : Type} (g : A0 → A1 → A2 → A3 → A4 → A5 → B) (a0 : A0) (a1 : A1) (a2 : A2) (a3 : A3)
    (a4 : A4) (a5 : A5) : B := g a0 a1 a2 a3 a4 a5

variable {τ : Topo} {sig : RefSig} {Val : EltTy → Type}
variable {x0 x1 x2 x3 x4 x5 y : Ref sig .tc}

/-- The result of a six-operand operation at its own result buffer: its function of the six operands' contents, each
    read at its own buffer. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = app6 (fun (a0 : x0.ty.Contents Val) (a1 : x1.ty.Contents Val) (a2 : x2.ty.Contents Val) (a3 : x3.ty.Contents Val)
            (a4 : x4.ty.Contents Val) (a5 : x5.ty.Contents Val) =>
          f (sel6 (α := fun k => ((![x0, x1, x2, x3, x4, x5] : Fin 6 → Ref sig .tc) k).ty.Contents Val) a0 a1 a2 a3 a4 a5))
          (F (Proc.devRef .tc x0)) (F (Proc.devRef .tc x1)) (F (Proc.devRef .tc x2))
          (F (Proc.devRef .tc x3)) (F (Proc.devRef .tc x4)) (F (Proc.devRef .tc x5)) := by
  rw [nary_result]; unfold app6; congr 1; funext k; fin_cases k <;> rfl

/-- The same, stated for `simp`: the result buffer is not part of the pattern's key. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = app6 (fun (a0 : x0.ty.Contents Val) (a1 : x1.ty.Contents Val) (a2 : x2.ty.Contents Val) (a3 : x3.ty.Contents Val)
            (a4 : x4.ty.Contents Val) (a5 : x5.ty.Contents Val) =>
          f (sel6 (α := fun k => ((![x0, x1, x2, x3, x4, x5] : Fin 6 → Ref sig .tc) k).ty.Contents Val) a0 a1 a2 a3 a4 a5))
          (F (Proc.devRef .tc x0)) (F (Proc.devRef .tc x1)) (F (Proc.devRef .tc x2))
          (F (Proc.devRef .tc x3)) (F (Proc.devRef .tc x4)) (F (Proc.devRef .tc x5)) :=
  nary6_result f hxs hy F

/-- The result of a two-operand operation at its own result buffer, stated for `simp` as a two-argument application, so
    that the two operands' contents are evaluated before the operation's function takes them in. -/
theorem binary_result2' {a b : Ref sig .tc}
    (f : a.ty.Contents Val → b.ty.Contents Val → y.ty.Contents Val) (ha hb hy) (F : Valuation τ sig Val) :
    (binary (τ := τ) a b y f ha hb hy).result F (no_index (Proc.devRef .tc y))
      = app2 f (F (Proc.devRef .tc a)) (F (Proc.devRef .tc b)) :=
  binary_result a b y f ha hb hy F

/-- The fold of a literal operation list at a buffer, in one `simp` pass, for a list with a six-operand operation: the
    library's pass with the six-operand form in place of the general family form; then, definitionally, the
    six-argument application unfolded and the selector read at its literal positions. -/
macro "after_results_simp6" : tactic =>
  `(tactic| (simp (disch := decide) only [after_cons, after_nil,
      nullary_result', unary_result', Cert.LibNary6.binary_result2', ternary_result', quaternary_result', reshape_result', nary4_result',
      Cert.LibNary6.nary6_result', unaryIndexed_result', binaryIndexed_result',
      nullary_result_ne', unary_result_ne', binary_result_ne', ternary_result_ne', quaternary_result_ne', reshape_result_ne',
      nary_result_ne', unaryIndexed_result_ne', binaryIndexed_result_ne']; try dsimp only [Cert.LibNary6.app2, Cert.LibNary6.app6, Cert.LibNary6.sel6_0, Cert.LibNary6.sel6_1, Cert.LibNary6.sel6_2, Cert.LibNary6.sel6_3, Cert.LibNary6.sel6_4, Cert.LibNary6.sel6_5]))

end Cert.LibNary6

end
-- ==== Proof.BridgeKTail.lean ====
/-
  The kernel program's host operations after its region, composed into one function of three arrays.

  After the region has written the row-wise log-sum-exp `LSE : [16384]`, the program pairs each row number with the row's
  target column (each wrapped so that a negative index counts from its axis's end, then joined into `[16384, 2]` start indices), gathers one
  entry of `X` per row, subtracts `LSE` to get the target's log-probability `d`, exponentiates it to the target's
  probability, sums both over the rows, and combines the two sums: `1·(−(Σ d / 16384)) + 1·((Σ exp d − 16384)·(−2⁻¹²))`.
  The last combination is shared with the reference program, whose third input is a computed sum instead of the constant
  `16384`: it is named `epi` here, a function of the three scalars, and is never opened.

  `kernel_tail`: the run of those operations after the region, for any proof data of the region whose arrays start as
  the region finds them, is `kTail` of the two argument arrays and of the region's output array. The run's fold over the
  operation list is computed one operation at a time; what is left reads three buffers through the region's final
  contents: the output window's array (the region's result), the input window's array (never written back, so still the
  argument), and the target array (no window's array, so untouched).
-/
import proofs.«109123_j52613349376066_2_alg».proof.Proof.Gen.KernelIdeal.Frame
import proofs.«109123_j52613349376066_2_alg».proof.Proof.LibNary6
import Idealize.ShloMosaic.PureOps.Ideal.Laws

noncomputable section

namespace Cert.Bridge

open Cert.KernelIdeal Cert.KernelIdeal.Gen Idealize.ShloMosaic Idealize.ShloMosaic.TcCoe Idealize.SL.Sem
open Idealize.ShloMosaic.StableHlo
open Idealize.ShloMosaic.Pipeline (Dat)

/-- The shared last combination of the two sums `a`, `b` and the count `n`:
    `1·(−(a / 16384)) + 1·((b − n)·(−2⁻¹²))`, the float literals kept as their words. -/
def epi (a b n : (⟨S_, .f32⟩ : BufTy).Contents (Elt Ideal)) : (⟨S_, .f32⟩ : BufTy).Contents (Elt Ideal) :=
  addf (F := Ideal) (φ := .f32)
    (mulf (F := Ideal) (φ := .f32) (constant (F := Ideal) S_ .f32 0x3F800000#32)
      (Host.negf (F := Ideal) (φ := .f32) (Host.divf (F := Ideal) (φ := .f32) a (constant (F := Ideal) S_ .f32 0x46800000#32))))
    (mulf (F := Ideal) (φ := .f32) (constant (F := Ideal) S_ .f32 0x3F800000#32)
      (mulf (F := Ideal) (φ := .f32) (subf (F := Ideal) (φ := .f32) b n) (constant (F := Ideal) S_ .f32 0xB9800000#32)))

/-- The start indices: row `r` holds (the wrapped row number, the wrapped target column of the row). -/
def kIdx (Tg : (⟨S16384, .i32⟩ : BufTy).Contents (Elt Ideal)) : (⟨S16384x2, .i32⟩ : BufTy).Contents (Elt Ideal) :=
  concatenate S16384x2 1
    [⟨S16384x1,
        broadcastInDim S16384x1 ![0] bcast_S16384_S16384x1_0
          (select
            (cmpi CmpIPredicate.slt (iotaInDim S16384 32 0)
              (broadcastInDim S16384 ![] bcast_S_S16384 (constantI S_ 32 0#32)))
            (addi (iotaInDim S16384 32 0)
              (broadcastInDim S16384 ![] bcast_S_S16384 (constantI S_ 32 16384#32)))
            (iotaInDim S16384 32 0))⟩,
      ⟨S16384x1,
        broadcastInDim S16384x1 ![0] bcast_S16384_S16384x1_0
          (select
            (cmpi CmpIPredicate.slt Tg (broadcastInDim S16384 ![] bcast_S_S16384 (constantI S_ 32 0#32)))
            (addi Tg (broadcastInDim S16384 ![] bcast_S_S16384 (constantI S_ 32 10000#32)))
            Tg)⟩]
    concatenates_S16384x1_S16384x1_S16384x2_d1

/-- The target's log-probability per row: the gathered entry of `X` less the row's log-sum-exp. -/
def kD (X : (⟨S16384x10000, .f32⟩ : BufTy).Contents (Elt Ideal)) (Tg : (⟨S16384, .i32⟩ : BufTy).Contents (Elt Ideal))
    (LSE : (⟨S16384, .f32⟩ : BufTy).Contents (Elt Ideal)) : (⟨S16384, .f32⟩ : BufTy).Contents (Elt Ideal) :=
  subf (F := Ideal) (φ := .f32) (Host.gather gather_S16384x10000_S16384x2_S16384_n_01_n_n_01_1_11 X (kIdx Tg)) LSE

/-- The kernel program's host tail, composed. -/
def kTail (X : (⟨S16384x10000, .f32⟩ : BufTy).Contents (Elt Ideal)) (Tg : (⟨S16384, .i32⟩ : BufTy).Contents (Elt Ideal))
    (LSE : (⟨S16384, .f32⟩ : BufTy).Contents (Elt Ideal)) : (⟨S_, .f32⟩ : BufTy).Contents (Elt Ideal) :=
  epi
    (Host.reduceAdd (F := Ideal) (φ := .f32) (kD X Tg LSE) (constant (F := Ideal) S_ .f32 0x00000000#32) reducesTo_S16384_S_d0 h_S_)
    (Host.reduceAdd (F := Ideal) (φ := .f32) (Host.exp (F := Ideal) (φ := .f32) (kD X Tg LSE)) (constant (F := Ideal) S_ .f32 0x00000000#32)
      reducesTo_S16384_S_d0 h_S_)
    (constant (F := Ideal) S_ .f32 0x46800000#32)

set_option maxRecDepth 65536 in
/-- THE TAIL'S RUN IS `kTail`, for any proof data of the region whose arrays start as the region finds them. -/
theorem kernel_tail (m : (ℓ : Loc nD τ sig) → Buf (Elt Ideal) ℓ)
    (dats : (p : Fin 1) → (c : Dev nD) → Dat τ (Elt Ideal) Unit ℕ (UR sig nD τ) ℕ (cfgs p) c)
    (hA : ∀ c w, (dats 0 c).A w = Gen.V m c (Pipeline.arrRef spec0 w)) (c : Dev nD) :
    Pipeline.afterTail₀ cfgs dats 0 (Gen.V0 m) [Gen.hostOps1] c main_v26
      = kTail (m ((c : Thread nD τ).loc main_arg0)) (m ((c : Thread nD τ).loc main_arg1)) ((dats 0 c).arrAt 1 cfg0.N) := by
  unfold Pipeline.afterTail₀
  show StableHlo.after hostOps1 _ (Proc.devRef .tc main_v26) = _
  after_results_simp6
  have e0 : Pipeline.withArrays (cfgs 0).spec c (V0 m c) (fun w => (dats 0 c).arrAt w (cfgs 0).N) (Proc.devRef .tc main_arg0)
      = m ((c : Thread nD τ).loc main_arg0) :=
    (Pipeline.withArrays_arr spec0 launch0.win.arr_inj c (V0 m c) (fun w => (dats 0 c).arrAt w (cfgs 0).N) 0).trans
      (((dats 0 c).arrAt_in 0 rfl _).trans ((hA c 0).trans (V_main_arg0 m c)))
  have e1 : Pipeline.withArrays (cfgs 0).spec c (V0 m c) (fun w => (dats 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e2 : Pipeline.withArrays (cfgs 0).spec c (V0 m c) (fun w => (dats 0 c).arrAt w (cfgs 0).N) (Proc.devRef .tc main_v0)
      = (dats 0 c).arrAt 1 cfg0.N :=
    Pipeline.withArrays_arr spec0 launch0.win.arr_inj c (V0 m c) (fun w => (dats 0 c).arrAt w (cfgs 0).N) 1
  rw [e0, e1, e2]
  rfl

end Cert.Bridge

end
-- ==== Proof.BridgeFinite.lean ====
/-
  The precondition says every entry of the logits array is a real number.

  The predicate says `|x| < +∞` of every entry of the array: one reduce by `and`, from the constant 1, of the
  element-wise comparison of `|x|` with the word of `+∞`. The claim states that its one result is 1; a reduce by `and`
  that came out 1 met a 1 at every element, so at every index `max x (−x) < ⊤` holds among the extended reals, and the
  only extended reals of which it holds are the embedded reals: for `⊥` and for `⊤` the maximum is `⊤`.
-/
import proofs.«109123_j52613349376066_2_alg».proof.Defs
import Idealize.ShloMosaic.Lib.ReduceAll
import Idealize.ShloMosaic.Lib.ValueIdx

noncomputable section

namespace Cert.Bridge

open Idealize.ShloMosaic Idealize.SL.Sem

/-- An extended real whose absolute value compares below the word of `+∞` is a real. -/
theorem real_of_abs_lt_inf (x : EReal)
    (h : Ideal.cmp .olt (max x (-x)) (Ideal.ofBits .f32 0x7F800000#32) = 1#1) : ∃ v : ℝ, x = (v : EReal) := by
  have htop : Ideal.ofBits .f32 0x7F800000#32 = (⊤ : EReal) := by simp [Ideal.ofBits, Ideal.ieee]
  rw [htop] at h
  have hlt : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  induction x using EReal.rec with
  | bot => exact absurd hlt (by simp)
  | coe v => exact ⟨v, rfl⟩
  | top => exact absurd hlt (by simp)

/-- FROM THE PRECONDITION: every entry of the kernel program's first argument is a real, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg0) i = (v : EReal) := by
  intro i
  have h0 := congrFun (h c) ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  exact real_of_abs_lt_inf _ hi

end Cert.Bridge

end
-- ==== Proof.LibGatherPick.lean ====
/-
  `stablehlo.gather` picking ONE element per row of a matrix, read at an index.

  What `x[arange(R), t]` of a matrix `x : [R, C]` lowers to: a gather with no offset axes, both operand axes collapsed,
  start index map `[0, 1]`, slice sizes `[1, 1]` and the index vector on axis 1 of start indices shaped `[R, 2]`. Result
  element `r` is `x` at the position whose row is the start index `idx[r, 0]` and whose column is `idx[r, 1]`, each read
  as a signed integer and clamped into the matrix (StableHLO clamps every start index so that the slice fits): the row
  into `[0, R − 1]`, the column into `[0, C − 1]`. There is no batching axis and no offset axis, so the operand index is
  the clamped start alone on both axes.
-/
import Idealize.ShloMosaic.Lib.ValueIdx

noncomputable section

namespace Cert.LibGatherPick

open Idealize.ShloMosaic Idealize.ShloMosaic.ValueIdx

variable {α : Type}

/-- Those dimension numbers for an operand `[R, C]`, start indices `[R, 2]` and a result `[R]`; their conditions `wf` are
    decided on a program's literal shapes. -/
abbrev pickDims (R C : Nat) (wf : GatherDims.WF ⟨2, ![R, C]⟩ ⟨2, ![R, 2]⟩ ⟨1, ![R]⟩ [] [0, 1] [] [0, 1] [] 1 ![1, 1]) :
    GatherDims ⟨2, ![R, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

section
variable {R C w : Nat} (wf : GatherDims.WF ⟨2, ![R, C]⟩ ⟨2, ![R, 2]⟩ ⟨1, ![R]⟩ [] [0, 1] [] [0, 1] [] 1 ![1, 1])
  (idx : IVec ⟨2, ![R, 2]⟩ w) (r : Fin R)

theorem mem0 : (0 : Fin 2) ∈ ([0, 1] : List (Fin 2)) := by decide
theorem mem1 : (1 : Fin 2) ∈ ([0, 1] : List (Fin 2)) := by decide

/-- The operand's row coordinate for result element `r`: the clamped first component of its start index. -/
theorem coord0 :
    (pickDims R C wf).start (ix1 r) idx (0 : Fin 2) + (pickDims R C wf).batchCoord (ix1 r) (0 : Fin 2)
        + (pickDims R C wf).offCoord (ix1 r) (0 : Fin 2)
      = min (idx (ix2 r (0 : Fin 2))).toInt.toNat (R - 1) := by
  rw [GatherDims.batchCoord_eq_zero _ _ _ List.not_mem_nil,
    GatherDims.offCoord_eq_zero _ _ _ (fun h => ((GatherDims.mem_sKept _ _).mp h).1 mem0)]
  simp only [Nat.add_zero]
  unfold GatherDims.start
  rw [dif_pos (show (0 : Fin 2) ∈ (pickDims R C wf).startIndexMap from mem0)]
  have hsi : (pickDims R C wf).siIdx (ix1 r) ⟨List.idxOf (0 : Fin 2) (pickDims R C wf).startIndexMap,
      List.idxOf_lt_length_iff.2 mem0⟩ = ix2 r (0 : Fin 2) := by
    funext b; refine Fin.ext ?_
    match b with
    | ⟨0, _⟩ => rfl
    | ⟨1, _⟩ => rfl
  rw [hsi]
  rfl

/-- The operand's column coordinate for result element `r`: the clamped second component of its start index. -/
theorem coord1 :
    (pickDims R C wf).start (ix1 r) idx (1 : Fin 2) + (pickDims R C wf).batchCoord (ix1 r) (1 : Fin 2)
        + (pickDims R C wf).offCoord (ix1 r) (1 : Fin 2)
      = min (idx (ix2 r (1 : Fin 2))).toInt.toNat (C - 1) := by
  rw [GatherDims.batchCoord_eq_zero _ _ _ List.not_mem_nil,
    GatherDims.offCoord_eq_zero _ _ _ (fun h => ((GatherDims.mem_sKept _ _).mp h).1 mem1)]
  simp only [Nat.add_zero]
  unfold GatherDims.start
  rw [dif_pos (show (1 : Fin 2) ∈ (pickDims R C wf).startIndexMap from mem1)]
  have hsi : (pickDims R C wf).siIdx (ix1 r) ⟨List.idxOf (1 : Fin 2) (pickDims R C wf).startIndexMap,
      List.idxOf_lt_length_iff.2 mem1⟩ = ix2 r (1 : Fin 2) := by
    funext b; refine Fin.ext ?_
    match b with
    | ⟨0, _⟩ => rfl
    | ⟨1, _⟩ => rfl
  rw [hsi]
  rfl

end

/-- THE GATHER READ AT ROW `r`: the operand at (row start, column start), the two components of start index `r` read
    signed and clamped into the matrix. -/
theorem gather_pick_apply {R C w : Nat} (hR : 0 < R) (hC : 0 < C)
    (wf : GatherDims.WF ⟨2, ![R, C]⟩ ⟨2, ![R, 2]⟩ ⟨1, ![R]⟩ [] [0, 1] [] [0, 1] [] 1 ![1, 1])
    (x : (⟨2, ![R, C]⟩ : Shape).Idx → α) (idx : IVec ⟨2, ![R, 2]⟩ w) (r : Fin R) :
    Host.gather (pickDims R C wf) x idx (ix1 r)
      = x (ix2 (⟨min (idx (ix2 r (0 : Fin 2))).toInt.toNat (R - 1), by omega⟩ : Fin R)
               (⟨min (idx (ix2 r (1 : Fin 2))).toInt.toNat (C - 1), by omega⟩ : Fin C)) := by
  unfold Host.gather
  congr 1
  funext a
  refine Fin.ext ?_
  match a with
  | ⟨0, _⟩ => exact coord0 wf idx r
  | ⟨1, _⟩ => exact coord1 wf idx r

end Cert.LibGatherPick

end
-- ==== Proof.LibRowMaxReal.lean ====
/-
  A row's maximum, as a host program's max-reduce computes it, is a real number when the row's entries are.

  The host's reduce with a maximum body over the column axis of a matrix `[R, C]`, from the initial value `−∞`, is at row
  `r` the fold of `max` from `⊥` over the row's `C` entries. A fold of `max` from `⊥` over a finite set is `⊥` or one of
  the maxima met on the way, each the embedding of a real when the entries are; over a non-empty set (`0 < C`) the first
  step already leaves `⊥`. Nothing more is needed of it where only the row's shift by SOME real matters.
-/
import Idealize.ShloMosaic.Lib.ValueIdx
import Idealize.ShloMosaic.PureOps.Reduce
import Idealize.ShloMosaic.PureOps.Ideal.Laws

noncomputable section

namespace Cert.LibRowMaxReal

open Idealize.ShloMosaic Idealize.ShloMosaic.ValueIdx

/-- A fold of `max` from `⊥` over entries that are reals is `⊥` (over the empty set only) or a real. -/
theorem fold_max_bot_or_coe {ι : Type*} [DecidableEq ι] (f : ι → EReal) (s : Finset ι) (hf : ∀ k ∈ s, ∃ v : ℝ, f k = (v : EReal)) :
    (s = ∅ ∧ s.fold max ⊥ f = ⊥) ∨ ∃ v : ℝ, s.fold max ⊥ f = (v : EReal) := by
  induction s using Finset.induction_on with
  | empty => exact Or.inl ⟨rfl, Finset.fold_empty⟩
  | insert a s ha ih =>
    obtain ⟨va, hva⟩ := hf a (Finset.mem_insert_self a s)
    right
    rw [Finset.fold_insert ha, hva]
    rcases ih (fun k hk => hf k (Finset.mem_insert_of_mem hk)) with ⟨_, h0⟩ | ⟨v, hv⟩
    · exact ⟨va, by rw [h0]; exact max_eq_left bot_le⟩
    · exact ⟨max va v, by rw [hv]; exact (Monotone.map_max EReal.coe_strictMono.monotone).symm⟩

/-- Over a non-empty set it is a real. -/
theorem fold_max_coe {ι : Type*} [DecidableEq ι] (f : ι → EReal) (s : Finset ι) (hs : s.Nonempty)
    (hf : ∀ k ∈ s, ∃ v : ℝ, f k = (v : EReal)) : ∃ v : ℝ, s.fold max ⊥ f = (v : EReal) := by
  rcases fold_max_bot_or_coe f s hf with ⟨h0, _⟩ | h
  · exact absurd h0 hs.ne_empty
  · exact h

/-- The reduced index `r` with column `k` put back is (r, k). -/
theorem lift_ix2 {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- THE ROW MAXIMUM IS A REAL: the host's max-reduce over the columns from `−∞`, at a row whose entries are reals. -/
theorem row_max_real {R C : Nat} (hC : 0 < C) (x : FVec Ideal ⟨2, ![R, C]⟩ .f32)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (r : Fin R)
    (hx : ∀ j : Fin C, ∃ v : ℝ, x (ix2 r j) = (v : EReal)) :
    ∃ v : ℝ, Host.reduce FloatOps.maximumf x (constant (F := Ideal) (⟨0, ![]⟩ : Shape) .f32 0xFF800000#32) h' hu (ix1 r)
      = (v : EReal) := by
  rw [Host.reduce_eq_fold_single (FloatOps.maximumf (F := Ideal) (φ := .f32)) x _ h' h hu]
  have hb : (constant (F := Ideal) (⟨0, ![]⟩ : Shape) .f32 0xFF800000#32) (Shape.Idx.first hu) = (⊥ : EReal) := by
    show Ideal.ofBits .f32 0xFF800000#32 = ⊥
    simp [Ideal.ofBits, Ideal.ieee]
  rw [hb]
  refine fold_max_coe (x ∘ h.lift (ix1 r)) Finset.univ ⟨⟨0, hC⟩, Finset.mem_univ _⟩ fun k _ => ?_
  show ∃ v : ℝ, x (h.lift (ix1 r) k) = (v : EReal)
  rw [lift_ix2 h r k]
  exact hx _

end Cert.LibRowMaxReal

end
-- ==== Proof.LibIdxPair.lean ====
/-
  The two-column array of start indices that `x[arange(R), t]` builds, read at an index.

  The program makes each of the two index columns by broadcasting a vector `[R]` to a column `[R, 1]`, joins the two
  columns along axis 1 into `[R, 2]`, and before that "wraps" each vector: an entry below zero has the axis's extent added
  (a negative index counts from the axis's end). Read at row `r`: column 0 of the joined array is the first vector's entry `r`, column 1 the
  second's; a broadcast scalar reads its one value; and the wrap leaves a non-negative entry as it is, so the wrapped
  `arange` at `r` is the word of `r`, which read back as a signed integer is `r` (for `r` below `2³¹`).
-/
import Idealize.ShloMosaic.Lib.ValueIdx
import Idealize.ShloMosaic.Lib.Pipeline.Value

noncomputable section

namespace Cert.LibIdxPair

open Idealize.ShloMosaic Idealize.ShloMosaic.ValueIdx

variable {α : Type}

/-- Column 0 of two joined columns is the first column. -/
theorem concat_col0 {R : Nat} (a b : (⟨2, ![R, 1]⟩ : Shape).Idx → α)
    (hc : Shape.Concatenates [(⟨2, ![R, 1]⟩ : Shape), (⟨2, ![R, 1]⟩ : Shape)] (⟨2, ![R, 2]⟩ : Shape) 1) (r : Fin R) :
    concatenate (⟨2, ![R, 2]⟩ : Shape) 1 [⟨(⟨2, ![R, 1]⟩ : Shape), a⟩, ⟨(⟨2, ![R, 1]⟩ : Shape), b⟩] hc (ix2 r (0 : Fin 2))
      = a (ix2 r (0 : Fin 1)) := by
  refine concatenate_pair_apply_left 1 a b hc (ix2 r (0 : Fin 2)) rfl (ix2 r (0 : Fin 1)) ?_
  intro c
  match c with
  | ⟨0, _⟩ => rfl
  | ⟨1, _⟩ => rfl

/-- Column 1 of two joined columns is the second column. -/
theorem concat_col1 {R : Nat} (a b : (⟨2, ![R, 1]⟩ : Shape).Idx → α)
    (hc : Shape.Concatenates [(⟨2, ![R, 1]⟩ : Shape), (⟨2, ![R, 1]⟩ : Shape)] (⟨2, ![R, 2]⟩ : Shape) 1) (r : Fin R) :
    concatenate (⟨2, ![R, 2]⟩ : Shape) 1 [⟨(⟨2, ![R, 1]⟩ : Shape), a⟩, ⟨(⟨2, ![R, 1]⟩ : Shape), b⟩] hc (ix2 r (1 : Fin 2))
      = b (ix2 r (0 : Fin 1)) := by
  refine concatenate_pair_apply_right 1 a b hc (ix2 r (1 : Fin 2)) rfl rfl (ix2 r (0 : Fin 1)) ?_ ?_
  · intro c hne
    match c with
    | ⟨0, _⟩ => rfl
    | ⟨1, _⟩ => exact absurd rfl hne
  · rfl

/-- A vector broadcast to a column reads its entry of the row. -/
theorem bcast_col_apply {R : Nat} (hb : (⟨1, ![R]⟩ : Shape).BroadcastsInDim (⟨2, ![R, 1]⟩ : Shape) ![0])
    (v : (⟨1, ![R]⟩ : Shape).Idx → α) (r : Fin R) :
    broadcastInDim (⟨2, ![R, 1]⟩ : Shape) ![0] hb v (ix2 r (0 : Fin 1)) = v (ix1 r) := by
  refine broadcastInDim_apply _ hb v _ (ix1 r) fun a => ?_
  match a with
  | ⟨0, _⟩ =>
    show r.val = if R = 1 then 0 else r.val
    have := r.isLt
    split <;> omega

/-- A scalar broadcast to a vector reads its one value. -/
theorem bcast_scalar_apply {R : Nat} (hb : (⟨0, ![]⟩ : Shape).BroadcastsInDim (⟨1, ![R]⟩ : Shape) ![])
    (v : (⟨0, ![]⟩ : Shape).Idx → α) (i : (⟨1, ![R]⟩ : Shape).Idx) :
    broadcastInDim (⟨1, ![R]⟩ : Shape) ![] hb v i = v ix0 :=
  broadcastInDim_apply _ hb v i ix0 (fun a => a.elim0)

/-- The word of a natural below `2³¹`, read signed, is that natural. -/
theorem toInt_ofNat_of_lt (r : Nat) (hr : r < 2 ^ 31) : (BitVec.ofNat 32 r).toInt = (r : Int) := by
  rw [BitVec.toInt_eq_toNat_cond, BitVec.toNat_ofNat]
  split <;> omega

/-- … and clamped below at zero and read as a natural it is still that natural. -/
theorem toInt_toNat_ofNat_of_lt (r : Nat) (hr : r < 2 ^ 31) : (BitVec.ofNat 32 r).toInt.toNat = r := by
  rw [toInt_ofNat_of_lt r hr]; rfl

/-- A word that is not negative is not below zero. -/
theorem cmpi_slt_zero_of_nonneg (x : BitVec 32) (h : 0 ≤ x.toInt) : IntOp.cmpi .slt x 0#32 = 0#1 := by
  have e : x.slt 0#32 = false := by
    rw [BitVec.slt, BitVec.toInt_zero]
    exact decide_eq_false (by omega)
  show BitVec.ofBool (x.slt 0#32) = 0#1
  rw [e]; rfl

/-- The wrap of a non-negative index is the index. -/
theorem wrap_of_nonneg (x n : BitVec 32) (h : 0 ≤ x.toInt) :
    Scalar.select (IntOp.cmpi .slt x 0#32) (IntOp.addi x n) x = x := by
  rw [cmpi_slt_zero_of_nonneg x h, select_zero]

/-- The wrapped `arange` at `r` is the word of `r`. -/
theorem wrap_ofNat (r : Nat) (hr : r < 2 ^ 31) (n : BitVec 32) :
    Scalar.select (IntOp.cmpi .slt (BitVec.ofNat 32 r) 0#32) (IntOp.addi (BitVec.ofNat 32 r) n) (BitVec.ofNat 32 r)
      = BitVec.ofNat 32 r :=
  wrap_of_nonneg _ n (by rw [toInt_ofNat_of_lt r hr]; omega)

end Cert.LibIdxPair

end
-- ==== Proof.BridgeRefRead.lean ====
/-
  The reference program's stages that depend on values or fold over an axis, read at an index.

  Three kinds of stage are read here by hand. (1) The start indices: two columns joined along axis 1, the first the
  wrapped row numbers, the second the wrapped targets; column 0 at row `r` is the word of `r` (a row number is never
  negative, so the wrap leaves it). (2) The gathers: with those start indices, row `r` of a gather's result is the
  operand's entry at (r, the row's clamped target column) — the row coordinate is `r` itself because the word of `r` read
  signed is `r`, already inside the array. (3) The log-softmax: the row maximum is the fold of `max` over the row from
  `−∞` and then `max` with `−∞`, a real when the row's entries are; entry (r, c) of the result is the logit less the
  row's maximum, less the logarithm of the row's sum (from `0`) of the exponentials of the logits so shifted.
-/
import proofs.«109123_j52613349376066_2_alg».proof.Proof.RefRead
import proofs.«109123_j52613349376066_2_alg».proof.Proof.LibGatherPick
import proofs.«109123_j52613349376066_2_alg».proof.Proof.LibRowMaxReal
import proofs.«109123_j52613349376066_2_alg».proof.Proof.LibIdxPair

noncomputable section

namespace Cert.Bridge

open Cert.ReferenceIdeal Cert.ReferenceIdeal.Gen Cert.ReferenceIdeal.ReadP Idealize.ShloMosaic Idealize.ShloMosaic.ValueIdx

/-! ## The start indices -/

/-- Column 0 of the reference's start indices at row `r` is the word of `r`: the wrapped row number. -/
theorem refIdx_col0 (Tg : (⟨S16384, .i32⟩ : BufTy).Contents (Elt Ideal)) (r : Fin 16384) :
    val_main_v15 (F := Ideal) Tg (ix2 r (0 : Fin 2)) = BitVec.ofNat 32 r.val := by
  unfold val_main_v15
  refine (Cert.LibIdxPair.concat_col0 (R := 16384) _ _ _ r).trans ?_
  unfold val_main_v13
  refine (Cert.LibIdxPair.bcast_col_apply (R := 16384) _ _ r).trans ?_
  rw [val_main_v7_apply, val_main_v4_apply, val_main_v6_apply, val_main_v2_apply, val_main_v3_apply, val_main_c_apply]
  exact Cert.LibIdxPair.wrap_ofNat r.val (by have := r.isLt; omega) _

/-- The reference builds the same start indices a second time. -/
theorem refIdx2_eq (Tg : (⟨S16384, .i32⟩ : BufTy).Contents (Elt Ideal)) :
    val_main_v29 (F := Ideal) Tg = val_main_v15 (F := Ideal) Tg := rfl

/-- Row `r`'s target column: the second component of its start index, read signed and clamped into the row. -/
def tcol (Tg : (⟨S16384, .i32⟩ : BufTy).Contents (Elt Ideal)) (r : Fin 16384) : Fin 10000 :=
  ⟨min (val_main_v15 (F := Ideal) Tg (ix2 r (1 : Fin 2))).toInt.toNat (10000 - 1), by omega⟩

/-- THE GATHER: row `r` of the result is the operand's entry (r, target column of r), whatever the operand. -/
theorem ref_gather (A : (⟨S16384x10000, .f32⟩ : BufTy).Contents (Elt Ideal)) (Tg : (⟨S16384, .i32⟩ : BufTy).Contents (Elt Ideal))
    (r : Fin 16384) :
    Host.gather gather_S16384x10000_S16384x2_S16384_n_01_n_n_01_1_11 A (val_main_v15 (F := Ideal) Tg) (ix1 r)
      = A (ix2 r (tcol Tg r)) := by
  refine (Cert.LibGatherPick.gather_pick_apply (R := 16384) (C := 10000) (by decide) (by decide)
    gather_S16384x10000_S16384x2_S16384_n_01_n_n_01_1_11_wf A (val_main_v15 (F := Ideal) Tg) r).trans ?_
  refine congrArg A (funext fun d => ?_)
  match d with
  | ⟨0, _⟩ =>
    apply Fin.ext
    show min (val_main_v15 (F := Ideal) Tg (ix2 r (0 : Fin 2))).toInt.toNat (16384 - 1) = r.val
    rw [refIdx_col0, Cert.LibIdxPair.toInt_toNat_ofNat_of_lt r.val (by have := r.isLt; omega)]
    have := r.isLt; omega
  | ⟨1, _⟩ => rfl

/-! ## The reference's log-softmax, row by row -/

/-- The row maximum that entry (r, c) is shifted by sits at `r`. -/
theorem idx_rowmax (r : Fin 16384) (c : Fin 10000) : idx_main_call0_v3 (idx_main_call0_v4 (ix2 r c)) = ix1 r := by
  funext a; match a with | ⟨0, _⟩ => rfl
/-- So does the row's log-sum. -/
theorem idx_rowlog (r : Fin 16384) (c : Fin 10000) : idx_main_call0_v8 (idx_main_call0_v10 (ix2 r c)) = ix1 r := by
  funext a; match a with | ⟨0, _⟩ => rfl
/-- The `k`-th summand of row `r`'s sum sits at (r, k). -/
theorem idx_rowsum (r : Fin 16384) (k : Fin 10000) : idx_main_call0_v7 (ix1 r) k = ix2 r k := by
  funext a; match a with | ⟨0, _⟩ => rfl | ⟨1, _⟩ => rfl

/-- The shifted logits: the entry less its row's maximum. -/
theorem ref_shifted (X : (⟨S16384x10000, .f32⟩ : BufTy).Contents (Elt Ideal)) (r : Fin 16384) (c : Fin 10000) :
    val_main_call0_v5 (F := Ideal) X (ix2 r c) = X (ix2 r c) - val_main_call0_v2 (F := Ideal) X (ix1 r) := by
  rw [val_main_call0_v5_apply, val_main_call0_v4_apply, val_main_call0_v3_apply, idx_rowmax]
  rfl

/-- The row's sum of exponentials of the shifted logits, from `0`. -/
theorem ref_rowsum (X : (⟨S16384x10000, .f32⟩ : BufTy).Contents (Elt Ideal)) (r : Fin 16384) :
    val_main_call0_v7 (F := Ideal) X (ix1 r)
      = (0 : EReal) + ∑ k : Fin 10000, Ideal.exp (X (ix2 r k) - val_main_call0_v2 (F := Ideal) X (ix1 r)) := by
  rw [val_main_call0_v7_apply, val_main_call0_cst_1_apply]
  refine congrArg₂ (· + ·) Ideal.ofBits_zero_f32 (Finset.sum_congr rfl fun k _ => ?_)
  rw [idx_rowsum, val_main_call0_v6_apply, ref_shifted]
  rfl

/-- THE REFERENCE'S LOG-PROBABILITY at (r, c): the shifted logit less the logarithm of the row's sum. -/
theorem ref_logp (X : (⟨S16384x10000, .f32⟩ : BufTy).Contents (Elt Ideal)) (r : Fin 16384) (c : Fin 10000) :
    val_main_v0 (F := Ideal) X (ix2 r c)
      = (X (ix2 r c) - val_main_call0_v2 (F := Ideal) X (ix1 r))
        - Ideal.log ((0 : EReal) + ∑ k : Fin 10000, Ideal.exp (X (ix2 r k) - val_main_call0_v2 (F := Ideal) X (ix1 r))) := by
  rw [val_main_v0_apply, ref_shifted, val_main_call0_v10_apply, val_main_call0_v9_apply, val_main_call0_v8_apply, idx_rowlog,
    ref_rowsum]
  rfl

/-- The row maximum is a real when the row's entries are. -/
theorem ref_rowmax_real (X : (⟨S16384x10000, .f32⟩ : BufTy).Contents (Elt Ideal)) (hfin : ∀ i, ∃ v : ℝ, X i = (v : EReal))
    (r : Fin 16384) : ∃ mr : ℝ, val_main_call0_v2 (F := Ideal) X (ix1 r) = (mr : EReal) := by
  obtain ⟨v, hv⟩ := Cert.LibRowMaxReal.row_max_real (R := 16384) (C := 10000) (by decide) X
    reducesTo_S16384x10000_S16384_d1 (by decide) h_S_ r (fun j => hfin _)
  refine ⟨v, ?_⟩
  rw [val_main_call0_v2_apply, val_main_call0_v1_apply, val_main_call0_cst_0_apply]
  have hb : Ideal.ofBits .f32 0xFF800000#32 = (⊥ : EReal) := by simp [Ideal.ofBits, Ideal.ieee]
  show max (Ideal.ofBits .f32 0xFF800000#32) (val_main_call0_v0 (F := Ideal) X (ix1 r)) = _
  rw [hb, show val_main_call0_v0 (F := Ideal) X (ix1 r) = (v : EReal) from hv]
  exact max_eq_right bot_le

end Cert.Bridge

end
-- ==== Proof.LibSoftmaxRow.lean ====
/-
  One row of a softmax, over the extended reals, when every entry of the row is a real number.

  For reals `x j` over a finite non-empty index set and any real `m` (a row's maximum, but nothing here uses that):
  `∑ j, exp (x j - m) = exp (-m) · ∑ j, exp (x j)`, a positive real, so
  `log (∑ j, exp (x j - m)) = log (∑ j, exp (x j)) - m`. Two consequences, stated with the extended reals' operations
  exactly as a host program computes them (a sum that starts from `0`, `Ideal.exp`, `Ideal.log`):
  * the shifted log-probability `(x c - m) - log (0 + ∑ j, exp (x j - m))` is `x c - log (∑ j, exp (x j))`: the shift cancels;
  * the probabilities `exp ((x c - m) - log (0 + ∑ j, exp (x j - m)))` of a row sum to `1`.
  Every term is the embedding of a real, so the embedding is pushed outwards through the differences, the exponentials
  and the finite sum, and the laws are those of `Real.exp` and `Real.log`.
-/
import Idealize.ShloMosaic.PureOps.Ideal
import proofs.«109123_j52613349376066_2_alg».proof.Proof.LibERealSum

open scoped BigOperators

namespace Cert.LibSoftmaxRow

open Idealize.ShloMosaic

variable {ι : Type*} [Fintype ι] [Nonempty ι]

/-- A non-empty finite sum of exponentials is positive. -/
theorem sum_exp_pos (x : ι → ℝ) : 0 < ∑ j, Real.exp (x j) :=
  Finset.sum_pos (fun j _ => Real.exp_pos _) Finset.univ_nonempty

/-- Shifting every exponent by `m` shifts the logarithm of the sum by `m`. -/
theorem log_sum_exp_shift (x : ι → ℝ) (m : ℝ) :
    Real.log (∑ j, Real.exp (x j - m)) = Real.log (∑ j, Real.exp (x j)) - m := by
  have e : ∑ j, Real.exp (x j - m) = (∑ j, Real.exp (x j)) * Real.exp (-m) := by
    rw [Finset.sum_mul]
    refine Finset.sum_congr rfl fun j _ => ?_
    rw [← Real.exp_add, sub_eq_add_neg]
  rw [e, Real.log_mul (sum_exp_pos x).ne' (Real.exp_pos _).ne', Real.log_exp]
  ring

/-- The row's shifted sum of exponentials, as the host computes it from `0`, is the embedding of the real sum. -/
theorem shifted_sum_coe (x : ι → ℝ) (m : ℝ) :
    (0 : EReal) + ∑ j, Ideal.exp ((x j : EReal) - (m : EReal)) = ((∑ j, Real.exp (x j - m) : ℝ) : EReal) := by
  rw [zero_add, Cert.LibERealSum.coe_sum]
  refine Finset.sum_congr rfl fun j _ => ?_
  rw [← EReal.coe_sub, Ideal.exp_coe]

/-- Its logarithm is the embedding of `log (∑ j, exp (x j)) - m`. -/
theorem log_shifted_sum (x : ι → ℝ) (m : ℝ) :
    Ideal.log ((0 : EReal) + ∑ j, Ideal.exp ((x j : EReal) - (m : EReal)))
      = ((Real.log (∑ j, Real.exp (x j)) - m : ℝ) : EReal) := by
  rw [shifted_sum_coe, Ideal.log_coe, if_neg (not_le.mpr (sum_exp_pos fun j => x j - m)), log_sum_exp_shift]

/-- THE SHIFT CANCELS: the log-probability computed with the shift `m` is the one computed without it. -/
theorem logp_shift (x : ι → ℝ) (m : ℝ) (c : ι) :
    ((x c : EReal) - (m : EReal)) - Ideal.log ((0 : EReal) + ∑ j, Ideal.exp ((x j : EReal) - (m : EReal)))
      = (x c : EReal) - ((Real.log (∑ j, Real.exp (x j)) : ℝ) : EReal) := by
  rw [log_shifted_sum, ← EReal.coe_sub, ← EReal.coe_sub, ← EReal.coe_sub]
  congr 1
  ring

/-- The log-probability is the embedding of a real. -/
theorem logp_coe (x : ι → ℝ) (c : ι) :
    (x c : EReal) - ((Real.log (∑ j, Real.exp (x j)) : ℝ) : EReal) = ((x c - Real.log (∑ j, Real.exp (x j)) : ℝ) : EReal) :=
  (EReal.coe_sub _ _).symm

/-- A ROW'S PROBABILITIES SUM TO ONE. -/
theorem sum_prob_eq_one (x : ι → ℝ) (m : ℝ) :
    ∑ c, Ideal.exp (((x c : EReal) - (m : EReal)) - Ideal.log ((0 : EReal) + ∑ j, Ideal.exp ((x j : EReal) - (m : EReal))))
      = 1 := by
  have hpos := sum_exp_pos x
  have e : ∀ c, Ideal.exp (((x c : EReal) - (m : EReal)) - Ideal.log ((0 : EReal) + ∑ j, Ideal.exp ((x j : EReal) - (m : EReal))))
      = ((Real.exp (x c) / ∑ j, Real.exp (x j) : ℝ) : EReal) := by
    intro c
    rw [logp_shift, logp_coe, Ideal.exp_coe, Real.exp_sub, Real.exp_log hpos]
  rw [Finset.sum_congr rfl fun c _ => e c, ← Cert.LibERealSum.coe_sum, ← Finset.sum_div, div_self hpos.ne']
  rfl

end Cert.LibSoftmaxRow
-- ==== Proof.BridgeAgree.lean ====
/-
  The kernel program's host tail equals the reference program's last stage, given real logits and the row-wise
  log-sum-exp.

  Both programs end with the same combination of three scalars: the sum over the rows of the target's log-probability,
  the sum over the rows of the target's probability, and a count (the kernel program's constant 16384.0 where the
  reference sums all its probabilities). So it is enough that those three agree.
  * Row `r`'s target log-probability is, in the kernel program, `X[r, t] − LSE[r]` with `LSE[r] = log Σ_j exp X[r, j]`;
    in the reference, `(X[r, t] − M_r) − log Σ_j exp (X[r, j] − M_r)` with `M_r` the row's maximum. With real entries
    the shift by the real `M_r` cancels: both are the real `X[r, t] − log Σ_j exp X[r, j]`. Both programs gather with the
    same start indices, so `t` is the same column.
  * The target's probability is the exponential of that in both.
  * The reference's probabilities of one row sum to `1` (each is `exp X[r, c] / Σ_j exp X[r, j]`), so all of them sum
    to the number of rows, 16384, which is what the word `0x46800000` denotes.
-/
import proofs.«109123_j52613349376066_2_alg».proof.Proof.BridgeRefRead
import proofs.«109123_j52613349376066_2_alg».proof.Proof.BridgeKTail
import proofs.«109123_j52613349376066_2_alg».proof.Proof.LibSoftmaxRow
import proofs.«109123_j52613349376066_2_alg».proof.Proof.LibERealSum

noncomputable section

namespace Cert.Bridge

open Cert.ReferenceIdeal Cert.ReferenceIdeal.Gen Cert.ReferenceIdeal.ReadP Idealize.ShloMosaic Idealize.ShloMosaic.ValueIdx

/-! ## Reals in: the reference's log-probability without the shift, and a row's probabilities -/

/-- With real entries the reference's log-probability at (r, c) is `x − log Σ exp x` over the row: the shift by the
    row's maximum cancels. -/
theorem ref_logp_real (X : (⟨S16384x10000, .f32⟩ : BufTy).Contents (Elt Ideal)) (hfin : ∀ i, ∃ v : ℝ, X i = (v : EReal))
    (r : Fin 16384) (c : Fin 10000) :
    val_main_v0 (F := Ideal) X (ix2 r c)
      = X (ix2 r c) - ((Real.log (∑ j : Fin 10000, Real.exp (X (ix2 r j)).toReal) : ℝ) : EReal) := by
  obtain ⟨mr, hm⟩ := ref_rowmax_real X hfin r
  choose x hx using hfin
  rw [ref_logp, hm]
  simp only [hx, EReal.toReal_coe]
  exact Cert.LibSoftmaxRow.logp_shift (fun j : Fin 10000 => x (ix2 r j)) mr c

/-- With real entries the reference's probabilities of a row sum to one. -/
theorem ref_row_prob (X : (⟨S16384x10000, .f32⟩ : BufTy).Contents (Elt Ideal)) (hfin : ∀ i, ∃ v : ℝ, X i = (v : EReal))
    (r : Fin 16384) : ∑ c : Fin 10000, val_main_v1 (F := Ideal) X (ix2 r c) = 1 := by
  obtain ⟨mr, hm⟩ := ref_rowmax_real X hfin r
  choose x hx using hfin
  have e : ∀ c : Fin 10000, val_main_v1 (F := Ideal) X (ix2 r c)
      = Ideal.exp (((x (ix2 r c) : ℝ) : EReal) - (mr : EReal)
          - Ideal.log ((0 : EReal) + ∑ k : Fin 10000, Ideal.exp (((x (ix2 r k) : ℝ) : EReal) - (mr : EReal)))) := by
    intro c
    rw [val_main_v1_apply, ref_logp, hm]
    simp only [hx, Ideal.hostUnary_exp_def]
  rw [Finset.sum_congr rfl fun c _ => e c]
  exact Cert.LibSoftmaxRow.sum_prob_eq_one (fun j : Fin 10000 => x (ix2 r j)) mr

/-- The word `0x46800000` is the real 16384. -/
theorem ofBits_16384_f32 : Ideal.ofBits .f32 0x46800000#32 = ((16384 : ℝ) : EReal) := by
  simp [Ideal.ofBits, Ideal.ieee, -EReal.coe_mul]; norm_num

/-- 16384 ones sum to 16384. -/
theorem sum_ones : ∑ _r : Fin 16384, (1 : EReal) = ((16384 : ℝ) : EReal) := by
  have h : ∑ _r : Fin 16384, ((1 : ℝ) : EReal) = ((∑ _r : Fin 16384, (1 : ℝ) : ℝ) : EReal) :=
    (Cert.LibERealSum.coe_sum Finset.univ fun _ => (1 : ℝ)).symm
  rw [show (1 : EReal) = ((1 : ℝ) : EReal) from rfl, h]
  simp

/-- THE COUNT: with real entries the sum of all the reference's probabilities is the constant 16384.0 the kernel program
    subtracts instead. -/
theorem ref_total (X : (⟨S16384x10000, .f32⟩ : BufTy).Contents (Elt Ideal)) (hfin : ∀ i, ∃ v : ℝ, X i = (v : EReal))
    (i : S_.Idx) : val_main_v35 (F := Ideal) X i = Ideal.ofBits .f32 0x46800000#32 := by
  rw [val_main_v35_apply, val_main_cst_9_apply]
  refine Eq.trans (congrArg (FloatOps.ofBits (F := Ideal) .f32 0x00000000#32 + ·)
    ((sum_idx2 (n0 := 16384) (n1 := 10000) (val_main_v1 (F := Ideal) X)).trans
      (Finset.sum_congr rfl fun r _ => ref_row_prob X hfin r))) ?_
  show Ideal.ofBits .f32 0x00000000#32 + ∑ _r : Fin 16384, (1 : EReal) = _
  rw [Ideal.ofBits_zero_f32, zero_add, sum_ones, ofBits_16384_f32]

/-! ## The kernel program's tail against the reference's last stage -/

/-- The kernel program builds the start indices the reference builds. -/
theorem kIdx_eq (Tg : (⟨S16384, .i32⟩ : BufTy).Contents (Elt Ideal)) : kIdx Tg = val_main_v15 (F := Ideal) Tg := rfl

/-- The kernel program's target log-probability at row `r`: the target's logit less the row's log-sum-exp. -/
theorem kD_apply (X : (⟨S16384x10000, .f32⟩ : BufTy).Contents (Elt Ideal)) (Tg : (⟨S16384, .i32⟩ : BufTy).Contents (Elt Ideal))
    (LSE : (⟨S16384, .f32⟩ : BufTy).Contents (Elt Ideal)) (r : Fin 16384) :
    kD X Tg LSE (ix1 r) = X (ix2 r (tcol Tg r)) - LSE (ix1 r) := by
  show Host.gather Cert.ReferenceIdeal.gather_S16384x10000_S16384x2_S16384_n_01_n_n_01_1_11 X (val_main_v15 (F := Ideal) Tg) (ix1 r)
    - LSE (ix1 r) = _
  rw [ref_gather]

/-- The reference's gathered log-probability at row `r`. -/
theorem v16_apply (X : (⟨S16384x10000, .f32⟩ : BufTy).Contents (Elt Ideal)) (Tg : (⟨S16384, .i32⟩ : BufTy).Contents (Elt Ideal))
    (r : Fin 16384) : val_main_v16 (F := Ideal) X Tg (ix1 r) = val_main_v0 (F := Ideal) X (ix2 r (tcol Tg r)) := by
  unfold val_main_v16
  exact ref_gather _ Tg r

/-- The reference's gathered probability at row `r`: the exponential of the gathered log-probability. -/
theorem v30_apply (X : (⟨S16384x10000, .f32⟩ : BufTy).Contents (Elt Ideal)) (Tg : (⟨S16384, .i32⟩ : BufTy).Contents (Elt Ideal))
    (r : Fin 16384) : val_main_v30 (F := Ideal) X Tg (ix1 r) = Ideal.exp (val_main_v16 (F := Ideal) X Tg (ix1 r)) := by
  rw [v16_apply]
  unfold val_main_v30
  rw [refIdx2_eq]
  exact (ref_gather _ Tg r).trans rfl

/-- THE TWO TAILS AGREE when every logit is a real and `LSE` is the row-wise log-sum-exp: the three inputs of the shared
    last combination are equal — the gathered log-probabilities row by row (the reference's shift cancels), hence their
    exponentials, and the count (the reference's probabilities sum to one per row). -/
theorem tails_agree (X : (⟨S16384x10000, .f32⟩ : BufTy).Contents (Elt Ideal)) (Tg : (⟨S16384, .i32⟩ : BufTy).Contents (Elt Ideal))
    (LSE : (⟨S16384, .f32⟩ : BufTy).Contents (Elt Ideal)) (hfin : ∀ i, ∃ v : ℝ, X i = (v : EReal))
    (hL : ∀ r : Fin 16384, LSE (ix1 r) = ((Real.log (∑ j : Fin 10000, Real.exp (X (ix2 r j)).toReal) : ℝ) : EReal)) :
    kTail X Tg LSE = val_main_v40 (F := Ideal) X Tg := by
  have hd : kD X Tg LSE = val_main_v16 (F := Ideal) X Tg := by
    funext i
    obtain ⟨r, rfl⟩ : ∃ r : Fin 16384, i = ix1 r := ⟨i 0, eq_ix1 i⟩
    rw [kD_apply, v16_apply, ref_logp_real X hfin, hL]
  have hp : Host.exp (F := Ideal) (φ := .f32) (kD X Tg LSE) = val_main_v30 (F := Ideal) X Tg := by
    funext i
    obtain ⟨r, rfl⟩ : ∃ r : Fin 16384, i = ix1 r := ⟨i 0, eq_ix1 i⟩
    rw [v30_apply, ← hd]
    rfl
  have hn : constant (F := Ideal) Cert.KernelIdeal.S_ .f32 0x46800000#32 = val_main_v35 (F := Ideal) X :=
    funext fun i => (ref_total X hfin i).symm
  unfold kTail
  rw [hp, hd, hn]
  rfl

end Cert.Bridge

end
-- ==== Proof.lean ====
/-
  The certificate of the cross-entropy kernel against its reference, over the extended reals.

  The kernel computes, for every row of a 16384 × 10000 matrix `x`, `lse_r = log Σ_j exp x[r, j]` in ONE pass over the
  matrix — column tile by column tile, keeping a running maximum and a running sum rescaled to it — and then, on the host,
  picks each row's target entry `x[r, t_r]`, forms `d_r = x[r, t_r] − lse_r` and `p_r = exp d_r`, and returns
  `−(Σ d_r)/16384 + (Σ p_r − 16384) · (−2⁻¹²)`. The reference takes the row-wise log-softmax `logp = (x − max) − log Σ exp(x − max)`,
  its exponential `P`, the same picks of both, and returns `−(Σ logp[r, t_r])/16384 + (Σ P[r, t_r] − Σ_{r,j} P[r, j]) · (−2⁻¹²)`.
  With every entry of `x` a real number the two agree: `x − log Σ exp x = (x − max) − log Σ exp(x − max)` entry by entry, and
  every row of `P` sums to 1, so `Σ_{r,j} P[r, j] = 16384`. The running maximum the kernel starts from is a finite floor
  value instead of −∞; over the reals the log-sum-exp does not depend on which real number the sum is rescaled to.

  The three frames: the kernel's two (word level and idealized) are one proof, generic in the float instance — the body run
  once per column-tile case over whole buffers, the two scratch columns carried between the points of a row block —; the
  reference's is its run with the result dropped. The idealization rewrote nothing, so there is nothing to preserve.
-/
import proofs.«109123_j52613349376066_2_alg».proof.Defs
import proofs.«109123_j52613349376066_2_alg».proof.Proof.Gen.Kernel
import proofs.«109123_j52613349376066_2_alg».proof.Proof.Gen.Kernel.Skeleton
import proofs.«109123_j52613349376066_2_alg».proof.Proof.Gen.Kernel.Launch
import proofs.«109123_j52613349376066_2_alg».proof.Proof.Gen.Kernel.Points
import proofs.«109123_j52613349376066_2_alg».proof.Proof.Gen.Kernel.Frame
import proofs.«109123_j52613349376066_2_alg».proof.Proof.Gen.KernelIdeal
import proofs.«109123_j52613349376066_2_alg».proof.Proof.Gen.KernelIdeal.Skeleton
import proofs.«109123_j52613349376066_2_alg».proof.Proof.Gen.KernelIdeal.Launch
import proofs.«109123_j52613349376066_2_alg».proof.Proof.Gen.KernelIdeal.Points
import proofs.«109123_j52613349376066_2_alg».proof.Proof.Gen.KernelIdeal.Frame
import proofs.«109123_j52613349376066_2_alg».proof.Proof.Gen.ReferenceIdeal
import proofs.«109123_j52613349376066_2_alg».proof.Proof.Gen.Pre_finite_inputs
import proofs.«109123_j52613349376066_2_alg».proof.Proof.KBodyDat
import proofs.«109123_j52613349376066_2_alg».proof.Proof.IBodyDat
import proofs.«109123_j52613349376066_2_alg».proof.Proof.IKernelValue
import proofs.«109123_j52613349376066_2_alg».proof.Proof.BridgeKTail
import proofs.«109123_j52613349376066_2_alg».proof.Proof.BridgeFinite
import proofs.«109123_j52613349376066_2_alg».proof.Proof.BridgeAgree
import proofs.«109123_j52613349376066_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs to its end, faults nowhere and leaves its arguments as they were. -/
theorem frame_k : Cert.frame_Kernel := fun m ρ _ => Cert.Kernel.Hand.frame (F := Bits) m ρ

/-- The idealized kernel likewise: the same proof at the extended reals. -/
theorem frame_ki : Cert.frame_KernelIdeal := fun m ρ _ => Cert.KernelIdeal.Hand.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the same scalar: the kernel's run leaves the result array at the row-wise log-sum-exp and its host
    operations applied to it; the reference's run leaves its composed term; the two are equal when the matrix is finite. -/
theorem algebraic : Cert.algebraic_KernelIdeal_ReferenceIdeal := by
  intro m ρ m' ρ' hpre hagree
  refine ⟨fun c => Cert.Bridge.kTail (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      ((Cert.KernelIdeal.Hand.dats (F := Ideal) m 0 c).arrAt 1 Cert.KernelIdeal.cfg0.N), ?_, ?_⟩
  · refine (θ_run Cert.KernelIdeal.defs _ _).mono (fun r h c => ⟨?_, ?_, ?_⟩) (Cert.KernelIdeal.Hand.run_main (F := Ideal) m ρ)
    · exact ((h c).2 Cert.KernelIdeal.main_v26 (Pipeline.mem_restRefs_of Cert.KernelIdeal.main_v26 (by decide) (by decide))).trans
        (Cert.Bridge.kernel_tail m (Cert.KernelIdeal.Hand.dats m) (Cert.KernelIdeal.Hand.A_eq m) c)
    · exact ((h c).1 0).trans (((Cert.KernelIdeal.Hand.dats (F := Ideal) m 0 c).arrAt_in 0 rfl _).trans
        ((Cert.KernelIdeal.Hand.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Hand.dats m) c)
  · refine (θ_run Cert.ReferenceIdeal.defs _ _).mono (fun r h c => ⟨?_, (h c).2⟩) (Cert.ReferenceIdeal.ValueP.run (F := Ideal) m' ρ')
    rw [(h c).1, Cert.ReferenceIdeal.ReadP.val_main_v40_eq, (hagree c).1, (hagree c).2]
    exact (Cert.Bridge.tails_agree _ _ _ (Cert.Bridge.finite_of_pre m hpre c)
      (fun r => Cert.KernelIdeal.Hand.lse_value m c (Cert.Bridge.finite_of_pre m hpre c) r)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
